-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S1024x1024 : Shape := ⟨2, ![1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x1024x1024 .f32) (main_arg1 : FVec F S3072x1024 .f32) (main_arg2 : FVec F S1024x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8x1024x1024 : Shape := ⟨3, ![8, 1024, 1024]⟩
abbrev S3072x1024 : Shape := ⟨2, ![3072, 1024]⟩
abbrev S1024x1024 : Shape := ⟨2, ![1024, 1024]⟩
abbrev S8192x1024 : Shape := ⟨2, ![8192, 1024]⟩
abbrev S8192x3072 : Shape := ⟨2, ![8192, 3072]⟩
abbrev S8x1024x3072 : Shape := ⟨3, ![8, 1024, 3072]⟩
abbrev S8x16x1024x1024 : Shape := ⟨4, ![8, 16, 1024, 1024]⟩
abbrev S1x1024x128 : Shape := ⟨3, ![1, 1024, 128]⟩
abbrev S1x2x1024x1024 : Shape := ⟨4, ![1, 2, 1024, 1024]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S1x1024x1024 : Shape := ⟨3, ![1, 1024, 1024]⟩
abbrev S2x1024x1024 : Shape := ⟨3, ![2, 1024, 1024]⟩
abbrev S1024x128 : Shape := ⟨2, ![1024, 128]⟩

abbrev nBuf : Space → Nat
  | .hbm => 13
  | .vmem => 21
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S3072x1024, .bf16⟩
  | .hbm, ⟨4, _⟩ => ⟨S1024x1024, .bf16⟩
  | .hbm, ⟨5, _⟩ => ⟨S8192x1024, .f32⟩
  | .hbm, ⟨6, _⟩ => ⟨S8192x3072, .bf16⟩
  | .hbm, ⟨7, _⟩ => ⟨S8x1024x3072, .bf16⟩
  | .hbm, ⟨8, _⟩ => ⟨S8x1024x1024, .bf16⟩
  | .hbm, ⟨9, _⟩ => ⟨S8x16x1024x1024, .f32⟩
  | .hbm, ⟨10, _⟩ => ⟨S8192x1024, .bf16⟩
  | .hbm, ⟨11, _⟩ => ⟨S8192x1024, .f32⟩
  | .hbm, ⟨12, _⟩ => ⟨S8x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x2x1024x1024, .f32⟩
  | .local _ .vmem, ⟨15, _⟩ => ⟨S1x2x1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  shapeCasts_S8x1024x1024_S8192x1024 : S8x1024x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x3072_S8x1024x3072 : S8192x3072.ShapeCasts S8x1024x3072
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  inb_S1x1024x128_S1x1024x64_0_0_64 : ∀ a, (![0, 0, 64] : Fin 3 → Nat) a + S1x1024x64.size a ≤ S1x1024x128.size a
  shapeCasts_S1024x1024_S1x1024x1024 : S1024x1024.ShapeCasts S1x1024x1024
  concatenates_S1x1024x1024_S1x1024x1024_S2x1024x1024_d0 : Shape.Concatenates [S1x1024x1024, S1x1024x1024] S2x1024x1024 0
  inb_S1x2x1024x1024_S1x2x1024x1024_0_0_0_0 : ∀ a, (![0, 0, 0, 0] : Fin 4 → Nat) a + S1x2x1024x1024.size a ≤ S1x2x1024x1024.size a
  h_S1x2x1024x1024 : 0 < S1x2x1024x1024.numel
  shapeCasts_S1x2x1024x1024_S2x1024x1024 : S1x2x1024x1024.ShapeCasts S2x1024x1024
  shapeCasts_S2x1024x1024_S1x2x1024x1024 : S2x1024x1024.ShapeCasts S1x2x1024x1024
  concatenates_S1024x64_S1024x64_S1024x128_d1 : Shape.Concatenates [S1024x64, S1024x64] S1024x128 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S8192x1024_S8x1024x1024 : S8192x1024.ShapeCasts S8x1024x1024
  dot_S1024x1024_S1024x1024_S1024x1024_1_1_0_0_n_n_wf : DotDims.WF S1024x1024 S1024x1024 S1024x1024 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x3072.size a
  hwx0_2 : ∀ i : grid0.Coords, EltTy.bits .bf16 = 32 ∨ (Rect.block (s := S8192x3072) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x3072.size a
  hwx1_0 : ∀ i : grid1.Coords, EltTy.bits .bf16 = 32 ∨ (Rect.block (s := S8x1024x3072) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x3072.size a
  hwx1_1 : ∀ i : grid1.Coords, EltTy.bits .bf16 = 32 ∨ (Rect.block (s := S8x1024x3072) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x3072.size a
  hwx1_2 : ∀ i : grid1.Coords, EltTy.bits .bf16 = 32 ∨ (Rect.block (s := S8x1024x3072) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x1024.size a
  hwx1_3 : ∀ i : grid1.Coords, EltTy.bits .bf16 = 32 ∨ (Rect.block (s := S8x1024x1024) S1x1024x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2x1024x1024.size a ≤ S8x16x1024x1024.size a
  hwx1_4 : ∀ i : grid1.Coords, EltTy.bits .f32 = 32 ∨ (Rect.block (s := S8x16x1024x1024) S1x2x1024x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .f32 = 32 ∨ (Rect.block (s := S8192x1024) S1024x1024.size (cc2_transform_2 i) (hinb2_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x1024x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1x2x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S1024x1024 : Shape := ⟨2, ![1024, 1024]⟩
abbrev S8x1024x3072 : Shape := ⟨3, ![8, 1024, 3072]⟩
abbrev S8x1024x3x16x64 : Shape := ⟨5, ![8, 1024, 3, 16, 64]⟩
abbrev S3x8x16x1024x64 : Shape := ⟨5, ![3, 8, 16, 1024, 64]⟩
abbrev S1x8x16x1024x64 : Shape := ⟨5, ![1, 8, 16, 1024, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S8x1024x3072, .f32⟩
  | .hbm, ⟨4, _⟩ => ⟨S8x1024x3x16x64, .f32⟩
  | .hbm, ⟨5, _⟩ => ⟨S3x8x16x1024x64, .f32⟩
  | .hbm, ⟨6, _⟩ => ⟨S1x8x16x1024x64, .f32⟩
  | .hbm, ⟨7, _⟩ => ⟨S8x16x1024x64, .f32⟩
  | .hbm, ⟨8, _⟩ => ⟨S1x8x16x1024x64, .f32⟩
  | .hbm, ⟨9, _⟩ => ⟨S8x16x1024x64, .f32⟩
  | .hbm, ⟨10, _⟩ => ⟨S1x8x16x1024x64, .f32⟩
  | .hbm, ⟨11, _⟩ => ⟨S8x16x1024x64, .f32⟩
  | .hbm, ⟨12, _⟩ => ⟨S8x16x1024x1024, .f32⟩
  | .hbm, ⟨13, _⟩ => ⟨S_, .f32⟩
  | .hbm, ⟨14, _⟩ => ⟨S8x16x1024x1024, .f32⟩
  | .hbm, ⟨15, _⟩ => ⟨S8x16x1024x1024, .f32⟩
  | .hbm, ⟨16, _⟩ => ⟨S_, .f32⟩
  | .hbm, ⟨17, _⟩ => ⟨S8x16x1024, .f32⟩
  | .hbm, ⟨18, _⟩ => ⟨S_, .f32⟩
  | .hbm, ⟨19, _⟩ => ⟨S8x16x1024, .f32⟩
  | .hbm, ⟨20, _⟩ => ⟨S8x16x1024, .f32⟩
  | .hbm, ⟨21, _⟩ => ⟨S8x16x1024x1, .f32⟩
  | .hbm, ⟨22, _⟩ => ⟨S8x16x1024x1024, .f32⟩
  | .hbm, ⟨23, _⟩ => ⟨S8x16x1024x1024, .f32⟩
  | .hbm, ⟨24, _⟩ => ⟨S8x16x1024x1024, .f32⟩
  | .hbm, ⟨25, _⟩ => ⟨S_, .f32⟩
  | .hbm, ⟨26, _⟩ => ⟨S8x16x1024, .f32⟩
  | .hbm, ⟨27, _⟩ => ⟨S8x16x1024x1, .f32⟩
  | .hbm, ⟨28, _⟩ => ⟨S8x16x1024x1024, .f32⟩
  | .hbm, ⟨29, _⟩ => ⟨S8x16x1024x1024, .f32⟩
  | .hbm, ⟨30, _⟩ => ⟨S8x16x1024x64, .f32⟩
  | .hbm, ⟨31, _⟩ => ⟨S8x1024x16x64, .f32⟩
  | .hbm, ⟨32, _⟩ => ⟨S8x1024x1024, .f32⟩
  | .hbm, ⟨33, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S8x1024x3072_S8x1024x3x16x64 : S8x1024x3072.ShapeCasts S8x1024x3x16x64
  transposes_S8x1024x3x16x64_S3x8x16x1024x64_2_0_3_1_4 : S8x1024x3x16x64.Transposes [2, 0, 3, 1, 4] S3x8x16x1024x64
  slices_S3x8x16x1024x64_S1x8x16x1024x64_0_0_0_0_0 : S3x8x16x1024x64.Slices ![0, 0, 0, 0, 0] S1x8x16x1024x64
  shapeCasts_S1x8x16x1024x64_S8x16x1024x64 : S1x8x16x1024x64.ShapeCasts S8x16x1024x64
  slices_S3x8x16x1024x64_S1x8x16x1024x64_1_0_0_0_0 : S3x8x16x1024x64.Slices ![1, 0, 0, 0, 0] S1x8x16x1024x64
  slices_S3x8x16x1024x64_S1x8x16x1024x64_2_0_0_0_0 : S3x8x16x1024x64.Slices ![2, 0, 0, 0, 0] S1x8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.BRegion0.lean ====
/-
  The first linear projection as a pipelined region, at the buffer contents `V` the region is entered with.

  The grid walks the blocks of the output; at a point the body reads one 1024 × 1024 block of the left operand and one of
  the weights and overwrites one 1024 × 1024 block of the output with their product (the body's one stored value, a pure
  function of the two loads). The two operand blocks are left in place.
-/
import proofs.«106777_j17008070492194_2_alg».proof.Proof.Gen.Kernel.Launch
import proofs.«106777_j17008070492194_2_alg».proof.Proof.Gen.Kernel.Skeleton
import proofs.«106777_j17008070492194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's current staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1024 staging buffer, the one rectangle every access of the body goes through. -/
abbrev r0_0 : Rect S1024x1024 := Rect.unit (s := S1024x1024) ![0, 0] S1024x1024.size inb_S1024x1024_S1024x1024_0_0

/-- The output staging buffer after the body: the product of the two operand blocks, stored over the whole buffer. -/
def out0_2 (x0 : Vec F S1024x1024 .f32) (x1 : Vec F S1024x1024 .bf16) : Vec F S1024x1024 .bf16 :=
  View.canon [⟨r0_0, k0_pay1 (View.ld x0 r0_0) (View.ld x1 r0_0)⟩]

/-- The one store covers the buffer. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging buffers: the operands' buffers are read and kept, the output's ends at the product. -/
theorem sound_kernel0 (c : Dev nD) (E : Set ℕ) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole)
    (x0 : Vec F S1024x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` the operand
    buffers hold their blocks and the output buffer the product of the two; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegion1.lean ====
/-
  The attention kernel as a pipelined region, at the buffer contents `V` the region is entered with.

  The grid walks batch × head pairs. At a point the body reads three [1, 1024, 128] blocks of the projected rows (the
  pair's query, key and value columns; the three windows read ONE array at different column blocks), and overwrites
  one [1, 1024, 128] block of the context array and one [1, 2, 1024, 1024] block of the attention weights. Each operand
  block is read in two halves of 64 columns (one head each); each output block is stored whole, once. The stored values
  are pure functions of the six half-block loads. The three operand blocks are left in place.
-/
import proofs.«106777_j17008070492194_2_alg».proof.Proof.Gen.Kernel.Launch
import proofs.«106777_j17008070492194_2_alg».proof.Proof.Gen.Kernel.Skeleton
import proofs.«106777_j17008070492194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The two halves of an operand block (columns 0–63 and 64–127), and the two output buffers whole. -/
abbrev r1_lo : Rect S1x1024x128 := Rect.unit (s := S1x1024x128) ![0, 0, 0] S1x1024x64.size inb_S1x1024x128_S1x1024x64_0_0_0
abbrev r1_hi : Rect S1x1024x128 := Rect.unit (s := S1x1024x128) ![0, 0, 64] S1x1024x64.size inb_S1x1024x128_S1x1024x64_0_0_64
abbrev r1_o : Rect S1x1024x128 := Rect.unit (s := S1x1024x128) ![0, 0, 0] S1x1024x128.size inb_S1x1024x128_S1x1024x128_0_0_0
abbrev r1_w : Rect S1x2x1024x1024 := Rect.unit (s := S1x2x1024x1024) ![0, 0, 0, 0] S1x2x1024x1024.size inb_S1x2x1024x1024_S1x2x1024x1024_0_0_0_0

/-- The context buffer after the body, from the three operand blocks: both heads' contexts side by side. -/
def out1_3 (x0 x1 x2 : Vec F S1x1024x128 .bf16) : Vec F S1x1024x128 .bf16 :=
  View.canon [⟨r1_o, k1_pay3 (k1_pay5 (View.ld x0 r1_lo) (View.ld x1 r1_lo) (View.ld x2 r1_lo)) (k1_pay6 (View.ld x2 r1_hi))
    (k1_pay7 (View.ld x0 r1_hi) (View.ld x1 r1_hi)) (k1_pay8 (View.ld x0 r1_hi) (View.ld x1 r1_hi))⟩]

/-- The weights buffer after the body, from the query and key blocks: both heads' weights stacked. -/
def out1_4 (x0 x1 : Vec F S1x1024x128 .bf16) : Vec F S1x2x1024x1024 .f32 :=
  View.canon [⟨r1_w, k1_pay2 (k1_pay4 (View.ld x0 r1_lo) (View.ld x1 r1_lo))
    (k1_pay7 (View.ld x0 r1_hi) (View.ld x1 r1_hi)) (k1_pay8 (View.ld x0 r1_hi) (View.ld x1 r1_hi))⟩]

theorem cover1_3 (p0 : Vec F S1x1024x128 .bf16) (y : S1x1024x128.Idx) :
    ∃ pc ∈ ([⟨r1_o, p0⟩] : List (View.Piece (Elt F) S1x1024x128 .bf16)), y ∈ pc.1.set :=
  View.cover_of_tiled [⟨r1_o, p0⟩] S1x1024x128.size (by rfl) y
theorem cover1_4 (p0 : Vec F S1x2x1024x1024 .f32) (y : S1x2x1024x1024.Idx) :
    ∃ pc ∈ ([⟨r1_w, p0⟩] : List (View.Piece (Elt F) S1x2x1024x1024 .f32)), y ∈ pc.1.set :=
  View.cover_of_tiled [⟨r1_w, p0⟩] S1x2x1024x1024.size (by rfl) y

set_option maxHeartbeats 2000000 in
/-- The body on whole staging buffers: the operands' buffers are read and kept, the two outputs' end at the stored values. -/
theorem sound_kernel1 (c : Dev nD) (E : Set ℕ) (i : grid1.Coords) (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2x1024x1024 .f32) (harg6 : arg6.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2) ∗ owns (c : Thread nD τ) arg6 fullShare (out1_4 x0 x1)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    unfold out1_3
    dsimp only
    rfl
  iexists _; isplitr
  swap; · iexact H4
  ipureintro
  refine (View.read_writes_eq_canon _ _ _ (cover1_4 _)).trans ?_
  unfold out1_4
  dsimp only
  rfl

end Cert.Kernel.Hand

end
-- ==== Proof.BRegion1D.lean ====
/-
  The attention region's proof data and its body obligation: at every grid point the body is handed the three operand
  blocks (read off the array the three windows share) and leaves them in place, and leaves the two stored values in the
  output windows' buffers.
-/
import proofs.«106777_j17008070492194_2_alg».proof.Proof.Gen.Kernel.Launch
import proofs.«106777_j17008070492194_2_alg».proof.Proof.Gen.Kernel.Skeleton
import proofs.«106777_j17008070492194_2_alg».proof.Proof.Gen.Kernel.Points
import proofs.«106777_j17008070492194_2_alg».proof.Proof.BRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three windows on the projected-rows array hold it at three shares that make up the whole. -/
def q1 : Fin cfg1.W → PosShare TreeShare
  | ⟨0, _⟩ => fullShare.left
  | ⟨1, _⟩ => fullShare.right.left
  | ⟨2, _⟩ => fullShare.right.right
  | ⟨3, _⟩ => fullShare
  | ⟨4, _⟩ => fullShare

/-- The region's proof data on core `c`: the arrays as the region finds them; after the body at point `t` the operand
    buffers hold their blocks and the two output buffers the stored values; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BSplit1.lean ====
/-
  The attention region's arrays at its entry and exit: the three operand windows share one array, whose whole share
  is dealt among them (a half, a quarter, a quarter) when the region is entered and put together again when it is left.
-/
import proofs.«106777_j17008070492194_2_alg».proof.Proof.Gen.Kernel.Launch
import proofs.«106777_j17008070492194_2_alg».proof.Proof.Gen.Kernel.Skeleton
import proofs.«106777_j17008070492194_2_alg».proof.Proof.Gen.Kernel.Points
import proofs.«106777_j17008070492194_2_alg».proof.Proof.BRegion1D
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- A whole share is a half and two quarters. -/
theorem deal3 {ℓ : Loc nD τ sig} (f : Buf (Elt F) ℓ) :
    (ℓ ↦{fullShare} f : sProp 𝕄)
      ⊣⊢ iprop((ℓ ↦{fullShare.left} f) ∗ (ℓ ↦{fullShare.right.left} f) ∗ (ℓ ↦{fullShare.right.right} f)) := by
  constructor
  · iintro H
    ihave H := (pointsTo_share (PosShare.mem_left_op_right fullShare)).1 $$ H
    icases H with ⟨Hl, Hr⟩
    ihave Hr := (pointsTo_share (PosShare.mem_left_op_right fullShare.right)).1 $$ Hr
    icases Hr with ⟨Hrl, Hrr⟩
    isplitl [Hl]; · iexact Hl
    isplitl [Hrl]; · iexact Hrl
    iexact Hrr
  · iintro ⟨Hl, Hrl, Hrr⟩
    ihave Hr := (pointsTo_share (PosShare.mem_left_op_right fullShare.right)).2 $$ [Hrl Hrr]
    · isplitl [Hrl] <;> iassumption
    ihave H := (pointsTo_share (PosShare.mem_left_op_right fullShare)).2 $$ [Hl Hr]
    · isplitl [Hl] <;> iassumption
    iexact H

/-- The distinct buffers behind the five windows' arrays are three. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v4) ↦{fullShare} W main_v4) ∗ (((c : Thread nD τ).loc main_v5_0) ↦{fullShare} W main_v5_0)
          ∗ (((c : Thread nD τ).loc main_v5_1) ↦{fullShare} W main_v5_1)) := by
  unfold Pipeline.arrBufs
  exact bigSep_eq_bigSepL_of_eq [main_v4, main_v5_0, main_v5_1] (by decide) (by decide) _

/-- The windows' arrays at given contents, each a whole buffer held at its window's share. -/
theorem arrays1_eq' (c : Dev nD) (Fw : (w : Fin cfg1.W) → Buf (Elt F) ((cfg1.win w).arr.view.loc (c : Thread nD τ))) :
    (dat1 V c).arrays Fw = bigSep Finset.univ fun w => ((((c : Thread nD τ).loc (Pipeline.arrRef spec1 w)) ↦{(dat1 V c).share w} Fw w : sProp 𝕄)) := by
  unfold Dat.arrays
  exact bigSep_congr fun w _ => by rw [(arr_whole1 w).set_eq_univ]

/-- The windows' shares: a half and two quarters of the shared array, the two results whole. -/
theorem share1_0 (c : Dev nD) : (dat1 V c).share 0 = fullShare.left := by
  unfold Dat.share; dsimp only [dat1, q1]; rfl
theorem share1_1 (c : Dev nD) : (dat1 V c).share 1 = fullShare.right.left := by
  unfold Dat.share; dsimp only [dat1, q1]; rfl
theorem share1_2 (c : Dev nD) : (dat1 V c).share 2 = fullShare.right.right := by
  unfold Dat.share; dsimp only [dat1, q1]; rfl
theorem share1_3 (c : Dev nD) : (dat1 V c).share 3 = fullShare := by
  unfold Dat.share; dsimp only [dat1, q1]; rfl
theorem share1_4 (c : Dev nD) : (dat1 V c).share 4 = fullShare := by
  unfold Dat.share; dsimp only [dat1, q1]; rfl

/-- The windows' arrays at given contents, window by window: the shared array at its three shares, the two results whole. -/
theorem arrays1_eq (c : Dev nD) (Fw : (w : Fin cfg1.W) → Buf (Elt F) ((cfg1.win w).arr.view.loc (c : Thread nD τ))) :
    (dat1 V c).arrays Fw = iprop(
        (((c : Thread nD τ).loc main_v4) ↦{fullShare.left} Fw 0)
      ∗ (((c : Thread nD τ).loc main_v4) ↦{fullShare.right.left} Fw 1)
      ∗ (((c : Thread nD τ).loc main_v4) ↦{fullShare.right.right} Fw 2)
      ∗ (((c : Thread nD τ).loc main_v5_0) ↦{fullShare} Fw 3)
      ∗ (((c : Thread nD τ).loc main_v5_1) ↦{fullShare} Fw 4)) := by
  rw [arrays1_eq', bigSep_W1, share1_0, share1_1, share1_2, share1_3, share1_4]

/-- A core's unscoped buffers are the buffers behind the region's arrays and the rest. -/
theorem split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄)
          ∗ Pipeline.unscopedRest (Ix := Unit) (Name := ℕ) (U := UR sig nD τ) (Lvl := ℕ) spec1 c W) :=
  Pipeline.unscopedBufs_split₀ (nD := nD) (τ := τ) cfgs 1 winFacts₀1.arr_unscoped c W

/-- ENTRY: a core's unscoped buffers are the region's arrays as it finds them, the shared array's whole share dealt
    among its three windows, and the unscoped rest. -/
theorem entry1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [split1, arrBufs1_eq, arrays1_eq]
  iintro ⟨⟨H4, H50, H51⟩, Hrest⟩
  ihave H4 := (deal3 _).1 $$ H4
  icases H4 with ⟨Hl, Hrl, Hrr⟩
  isplitr [Hrest]
  · isplitl [Hl]; · iexact Hl
    isplitl [Hrl]; · iexact Hrl
    isplitl [Hrr]; · iexact Hrr
    isplitl [H50]; · iexact H50
    iexact H51
  · iexact Hrest

/-- The three operand windows read one array. -/
theorem A1_0 (c : Dev nD) : (dat1 V c).A 0 = V c main_v4 := A_eq1 V c 0
theorem A1_1 (c : Dev nD) : (dat1 V c).A 1 = V c main_v4 := A_eq1 V c 1
theorem A1_2 (c : Dev nD) : (dat1 V c).A 2 = V c main_v4 := A_eq1 V c 2

/-- EXIT: the region's arrays as it leaves them — the shared array untouched, its three shares put together — and the
    unscoped rest are the core's unscoped buffers at any contents that have the two results as left and agree with the
    entry contents elsewhere. -/
theorem exit1 (c : Dev nD) (h0 : V' c main_v5_0 = (dat1 V c).arrAt 3 cfg1.N) (h1 : V' c main_v5_1 = (dat1 V c).arrAt 4 cfg1.N)
    (hrest : ∀ b : Ref sig .tc, b ≠ main_v5_0 → b ≠ main_v5_1 → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c (V' c) : sProp 𝕄) := by
  have hr : (Pipeline.unscopedRest (Ix := Unit) (Name := ℕ) (U := UR sig nD τ) (Lvl := ℕ) spec1 c (V' c) : sProp 𝕄)
      = Pipeline.unscopedRest (Ix := Unit) (Name := ℕ) (U := UR sig nD τ) (Lvl := ℕ) spec1 c (V c) := by
    unfold Pipeline.unscopedRest
    exact bigSep_congr fun b hb => by
      have hn := (Finset.mem_sdiff.mp hb).2
      rw [hrest b (fun e => hn (e ▸ Finset.mem_image.mpr ⟨3, Finset.mem_univ _, rfl⟩))
        (fun e => hn (e ▸ Finset.mem_image.mpr ⟨4, Finset.mem_univ _, rfl⟩))]
  have e4 : V' c main_v4 = V c main_v4 := hrest main_v4 (by decide) (by decide)
  rw [split1, arrBufs1_eq, arrays1_eq, hr, e4, h0, h1,
    (dat1 V c).arrAt_in 0 rfl cfg1.N, (dat1 V c).arrAt_in 1 rfl cfg1.N, (dat1 V c).arrAt_in 2 rfl cfg1.N, A1_0, A1_1, A1_2]
  iintro ⟨⟨Hl, Hrl, Hrr, H50, H51⟩, Hrest⟩
  ihave H4 := (deal3 _).2 $$ [Hl Hrl Hrr]
  · isplitl [Hl]; · iexact Hl
    isplitl [Hrl]; · iexact Hrl
    iexact Hrr
  isplitr [Hrest]
  · isplitl [H4]; · iexact H4
    isplitl [H50]; · iexact H50
    iexact H51
  · iexact Hrest

end Cert.Kernel.Hand

end
-- ==== Proof.BRegion2.lean ====
/-
  The second linear projection as a pipelined region, at the buffer contents `V` the region is entered with.

  The grid walks the blocks of the output; at a point the body reads one 1024 × 1024 block of the left operand and one of
  the weights and overwrites one 1024 × 1024 block of the output with their product (the body's one stored value, a pure
  function of the two loads). The two operand blocks are left in place.
-/
import proofs.«106777_j17008070492194_2_alg».proof.Proof.Gen.Kernel.Launch
import proofs.«106777_j17008070492194_2_alg».proof.Proof.Gen.Kernel.Skeleton
import proofs.«106777_j17008070492194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand window's current staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 1024 × 1024 staging buffer, the one rectangle every access of the body goes through. -/
abbrev r2_0 : Rect S1024x1024 := Rect.unit (s := S1024x1024) ![0, 0] S1024x1024.size inb_S1024x1024_S1024x1024_0_0

/-- The output staging buffer after the body: the product of the two operand blocks, stored over the whole buffer. -/
def out2_2 (x0 : Vec F S1024x1024 .bf16) (x1 : Vec F S1024x1024 .bf16) : Vec F S1024x1024 .f32 :=
  View.canon [⟨r2_0, k2_pay1 (View.ld x0 r2_0) (View.ld x1 r2_0)⟩]

/-- The one store covers the buffer. -/
theorem cover2_2 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

set_option maxHeartbeats 1000000 in
/-- The body on whole staging buffers: the operands' buffers are read and kept, the output's ends at the product. -/
theorem sound_kernel2 (c : Dev nD) (E : Set ℕ) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole)
    (x0 : Vec F S1024x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__linear_kernel i arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` the operand
    buffers hold their blocks and the output buffer the product of the two; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BRun.lean ====
/-
  The whole program as a run of seven segments: four stretches of host operations (casts and reshapes) around three
  pipelined regions. Between two segments every buffer that outlives a region is held at named contents: the launch
  memory, then each host stretch's results, then what each region's write-backs leave in its output arrays. Every
  execution terminates without a fault, and every such buffer ends at the last of these contents.
-/
import proofs.«106777_j17008070492194_2_alg».proof.Proof.Gen.Kernel.Launch
import proofs.«106777_j17008070492194_2_alg».proof.Proof.Gen.Kernel.Skeleton
import proofs.«106777_j17008070492194_2_alg».proof.Proof.Gen.Kernel.Points
import proofs.«106777_j17008070492194_2_alg».proof.Proof.Gen.Kernel.Regions
import proofs.«106777_j17008070492194_2_alg».proof.Proof.BRegion0
import proofs.«106777_j17008070492194_2_alg».proof.Proof.BRegion1D
import proofs.«106777_j17008070492194_2_alg».proof.Proof.BSplit1
import proofs.«106777_j17008070492194_2_alg».proof.Proof.BRegion2
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the two weight casts and the reshape of x): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its output array at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the reshape of the projected rows): the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its two output arrays at what the write-backs leave, every other buffer as entered
    (the three operand windows read one array, which no write-back touches). -/
def W4 (c : Dev nD) : Valuation τ sig (Elt F) :=
  Function.update (Function.update (W3 m ρ c) (Proc.devRef .tc main_v5_0) ((dat1 (V3 m ρ) c).arrAt 3 cfg1.N))
    (Proc.devRef .tc main_v5_1) ((dat1 (V3 m ρ) c).arrAt 4 cfg1.N)
abbrev V4 : (c : Dev nD) → (b : Ref sig .tc) → Buf (Elt F) ((c : Thread nD τ).loc b) := fun c b => W4 m ρ c b
theorem W4_v5_0 (c : Dev nD) : W4 m ρ c (Proc.devRef .tc main_v5_0) = (dat1 (V3 m ρ) c).arrAt 3 cfg1.N := by
  unfold W4
  rw [Function.update_of_ne (StableHlo.devRef_ne_of_ne (by decide) : (Proc.devRef .tc main_v5_0 : DevRef τ sig) ≠ Proc.devRef .tc main_v5_1), Function.update_self]
theorem W4_v5_1 (c : Dev nD) : W4 m ρ c (Proc.devRef .tc main_v5_1) = (dat1 (V3 m ρ) c).arrAt 4 cfg1.N := by
  unfold W4; rw [Function.update_self]
theorem W4_of_ne (c : Dev nD) (b : Ref sig .tc) (h0 : b ≠ main_v5_0) (h1 : b ≠ main_v5_1) :
    W4 m ρ c (Proc.devRef .tc b) = W3 m ρ c (Proc.devRef .tc b) := by
  unfold W4
  rw [Function.update_of_ne (StableHlo.devRef_ne_of_ne h1), Function.update_of_ne (StableHlo.devRef_ne_of_ne h0)]

/-- After the third host stretch (the reshape of the contexts): the last region's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the last region's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the last host stretch (the reshape of the output): what the program returns. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first projection: entered from every buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every buffer at `W3`, left at `W4`. Its three operand windows share one array:
    the array's whole share is dealt among them at entry and gathered at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m ρ) (V4 m ρ) c (W4_v5_0 m ρ c) (W4_v5_1 m ρ c) (fun b h0 h1 => W4_of_ne m ρ c b h0 h1)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output projection: entered from every buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- Every weakly fair execution of the program terminates without a fault, and in every final state each buffer that
    outlives the regions holds its contents under `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments are never written -/

theorem W7_of_arg (c : Dev nD) (b : Ref sig .tc) (h0 : b ∉ hostOps0_W) (h1 : b ∉ hostOps1_W) (h2 : b ∉ hostOps2_W) (h3 : b ∉ hostOps3_W)
    (k0 : ∀ w, Pipeline.arrRef spec0 w ≠ b) (k1 : b ≠ main_v5_0) (k1' : b ≠ main_v5_1) (k2 : ∀ w, Pipeline.arrRef spec2 w ≠ b) :
    W7 m ρ c b = m ((c : Thread nD τ).loc b) :=
  calc W7 m ρ c b
    _ = W6 m ρ c b := StableHlo.after_of_writes_sub hostOps3 _ hostOps3_writes h3
    _ = W5 m ρ c b := W6_of_ne m ρ c b k2
    _ = W4 m ρ c b := StableHlo.after_of_writes_sub hostOps2 _ hostOps2_writes h2
    _ = W3 m ρ c b := W4_of_ne m ρ c b k1 k1'
    _ = W2 m ρ c b := StableHlo.after_of_writes_sub hostOps1 _ hostOps1_writes h1
    _ = W1 m ρ c b := W2_of_ne m ρ c b k0
    _ = W0 m ρ c b := StableHlo.after_of_writes_sub hostOps0 _ hostOps0_writes h0
    _ = m ((c : Thread nD τ).loc b) := rfl

theorem W7_arg0 (c : Dev nD) : W7 m ρ c main_arg0 = m ((c : Thread nD τ).loc main_arg0) :=
  W7_of_arg m ρ c main_arg0 (by decide) (by decide) (by decide) (by decide) (by decide) (by decide) (by decide) (by decide)
theorem W7_arg1 (c : Dev nD) : W7 m ρ c main_arg1 = m ((c : Thread nD τ).loc main_arg1) :=
  W7_of_arg m ρ c main_arg1 (by decide) (by decide) (by decide) (by decide) (by decide) (by decide) (by decide) (by decide)
theorem W7_arg2 (c : Dev nD) : W7 m ρ c main_arg2 = m ((c : Thread nD τ).loc main_arg2) :=
  W7_of_arg m ρ c main_arg2 (by decide) (by decide) (by decide) (by decide) (by decide) (by decide) (by decide) (by decide)

/-- The frame: every weakly fair execution terminates without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_arg0 m ρ c),
     (h c _ (mem_uc main_arg1 (by decide))).trans (W7_arg1 m ρ c),
     (h c _ (mem_uc main_arg2 (by decide))).trans (W7_arg2 m ρ c)⟩) (run_all m ρ)

end Cert.Kernel.Hand

end
-- ==== Proof.IRegion0.lean ====
/-
  The first linear projection as a pipelined region, at the buffer contents `V` the region is entered with.

  The grid walks the blocks of the output; at a point the body reads one 1024 × 1024 block of the left operand and one of
  the weights and overwrites one 1024 × 1024 block of the output with their product (the body's one stored value, a pure
  function of the two loads). The two operand blocks are left in place.
-/
import proofs.«106777_j17008070492194_2_alg».proof.Proof.Gen.KernelIdeal.Launch
import proofs.«106777_j17008070492194_2_alg».proof.Proof.Gen.KernelIdeal.Skeleton
import proofs.«106777_j17008070492194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's current staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1024 staging buffer, the one rectangle every access of the body goes through. -/
abbrev r0_0 : Rect S1024x1024 := Rect.unit (s := S1024x1024) ![0, 0] S1024x1024.size inb_S1024x1024_S1024x1024_0_0

/-- The output staging buffer after the body: the product of the two operand blocks, stored over the whole buffer. -/
def out0_2 (x0 : Vec F S1024x1024 .f32) (x1 : Vec F S1024x1024 .bf16) : Vec F S1024x1024 .bf16 :=
  View.canon [⟨r0_0, k0_pay1 (View.ld x0 r0_0) (View.ld x1 r0_0)⟩]

/-- The one store covers the buffer. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging buffers: the operands' buffers are read and kept, the output's ends at the product. -/
theorem sound_kernel0 (c : Dev nD) (E : Set ℕ) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole)
    (x0 : Vec F S1024x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` the operand
    buffers hold their blocks and the output buffer the product of the two; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IRegion1.lean ====
/-
  The attention kernel as a pipelined region, at the buffer contents `V` the region is entered with.

  The grid walks batch × head pairs. At a point the body reads three [1, 1024, 128] blocks of the projected rows (the
  pair's query, key and value columns; the three windows read ONE array at different column blocks), and overwrites
  one [1, 1024, 128] block of the context array and one [1, 2, 1024, 1024] block of the attention weights. Each operand
  block is read in two halves of 64 columns (one head each); each output block is stored whole, once. The stored values
  are pure functions of the six half-block loads. The three operand blocks are left in place.
-/
import proofs.«106777_j17008070492194_2_alg».proof.Proof.Gen.KernelIdeal.Launch
import proofs.«106777_j17008070492194_2_alg».proof.Proof.Gen.KernelIdeal.Skeleton
import proofs.«106777_j17008070492194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The two halves of an operand block (columns 0–63 and 64–127), and the two output buffers whole. -/
abbrev r1_lo : Rect S1x1024x128 := Rect.unit (s := S1x1024x128) ![0, 0, 0] S1x1024x64.size inb_S1x1024x128_S1x1024x64_0_0_0
abbrev r1_hi : Rect S1x1024x128 := Rect.unit (s := S1x1024x128) ![0, 0, 64] S1x1024x64.size inb_S1x1024x128_S1x1024x64_0_0_64
abbrev r1_o : Rect S1x1024x128 := Rect.unit (s := S1x1024x128) ![0, 0, 0] S1x1024x128.size inb_S1x1024x128_S1x1024x128_0_0_0
abbrev r1_w : Rect S1x2x1024x1024 := Rect.unit (s := S1x2x1024x1024) ![0, 0, 0, 0] S1x2x1024x1024.size inb_S1x2x1024x1024_S1x2x1024x1024_0_0_0_0

/-- The context buffer after the body, from the three operand blocks: both heads' contexts side by side. -/
def out1_3 (x0 x1 x2 : Vec F S1x1024x128 .bf16) : Vec F S1x1024x128 .bf16 :=
  View.canon [⟨r1_o, k1_pay3 (k1_pay5 (View.ld x0 r1_lo) (View.ld x1 r1_lo) (View.ld x2 r1_lo)) (k1_pay6 (View.ld x2 r1_hi))
    (k1_pay7 (View.ld x0 r1_hi) (View.ld x1 r1_hi)) (k1_pay8 (View.ld x0 r1_hi) (View.ld x1 r1_hi))⟩]

/-- The weights buffer after the body, from the query and key blocks: both heads' weights stacked. -/
def out1_4 (x0 x1 : Vec F S1x1024x128 .bf16) : Vec F S1x2x1024x1024 .f32 :=
  View.canon [⟨r1_w, k1_pay2 (k1_pay4 (View.ld x0 r1_lo) (View.ld x1 r1_lo))
    (k1_pay7 (View.ld x0 r1_hi) (View.ld x1 r1_hi)) (k1_pay8 (View.ld x0 r1_hi) (View.ld x1 r1_hi))⟩]

theorem cover1_3 (p0 : Vec F S1x1024x128 .bf16) (y : S1x1024x128.Idx) :
    ∃ pc ∈ ([⟨r1_o, p0⟩] : List (View.Piece (Elt F) S1x1024x128 .bf16)), y ∈ pc.1.set :=
  View.cover_of_tiled [⟨r1_o, p0⟩] S1x1024x128.size (by rfl) y
theorem cover1_4 (p0 : Vec F S1x2x1024x1024 .f32) (y : S1x2x1024x1024.Idx) :
    ∃ pc ∈ ([⟨r1_w, p0⟩] : List (View.Piece (Elt F) S1x2x1024x1024 .f32)), y ∈ pc.1.set :=
  View.cover_of_tiled [⟨r1_w, p0⟩] S1x2x1024x1024.size (by rfl) y

set_option maxHeartbeats 2000000 in
/-- The body on whole staging buffers: the operands' buffers are read and kept, the two outputs' end at the stored values. -/
theorem sound_kernel1 (c : Dev nD) (E : Set ℕ) (i : grid1.Coords) (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x2x1024x1024 .f32) (harg6 : arg6.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2) ∗ owns (c : Thread nD τ) arg6 fullShare (out1_4 x0 x1)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    unfold out1_3
    dsimp only
    rfl
  iexists _; isplitr
  swap; · iexact H4
  ipureintro
  refine (View.read_writes_eq_canon _ _ _ (cover1_4 _)).trans ?_
  unfold out1_4
  dsimp only
  rfl

end Cert.KernelIdeal.Hand

end
-- ==== Proof.IRegion1D.lean ====
/-
  The attention region's proof data and its body obligation: at every grid point the body is handed the three operand
  blocks (read off the array the three windows share) and leaves them in place, and leaves the two stored values in the
  output windows' buffers.
-/
import proofs.«106777_j17008070492194_2_alg».proof.Proof.Gen.KernelIdeal.Launch
import proofs.«106777_j17008070492194_2_alg».proof.Proof.Gen.KernelIdeal.Skeleton
import proofs.«106777_j17008070492194_2_alg».proof.Proof.Gen.KernelIdeal.Points
import proofs.«106777_j17008070492194_2_alg».proof.Proof.IRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three windows on the projected-rows array hold it at three shares that make up the whole. -/
def q1 : Fin cfg1.W → PosShare TreeShare
  | ⟨0, _⟩ => fullShare.left
  | ⟨1, _⟩ => fullShare.right.left
  | ⟨2, _⟩ => fullShare.right.right
  | ⟨3, _⟩ => fullShare
  | ⟨4, _⟩ => fullShare

/-- The region's proof data on core `c`: the arrays as the region finds them; after the body at point `t` the operand
    buffers hold their blocks and the two output buffers the stored values; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.ISplit1.lean ====
/-
  The attention region's arrays at its entry and exit: the three operand windows share one array, whose whole share
  is dealt among them (a half, a quarter, a quarter) when the region is entered and put together again when it is left.
-/
import proofs.«106777_j17008070492194_2_alg».proof.Proof.Gen.KernelIdeal.Launch
import proofs.«106777_j17008070492194_2_alg».proof.Proof.Gen.KernelIdeal.Skeleton
import proofs.«106777_j17008070492194_2_alg».proof.Proof.Gen.KernelIdeal.Points
import proofs.«106777_j17008070492194_2_alg».proof.Proof.IRegion1D
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- A whole share is a half and two quarters. -/
theorem deal3 {ℓ : Loc nD τ sig} (f : Buf (Elt F) ℓ) :
    (ℓ ↦{fullShare} f : sProp 𝕄)
      ⊣⊢ iprop((ℓ ↦{fullShare.left} f) ∗ (ℓ ↦{fullShare.right.left} f) ∗ (ℓ ↦{fullShare.right.right} f)) := by
  constructor
  · iintro H
    ihave H := (pointsTo_share (PosShare.mem_left_op_right fullShare)).1 $$ H
    icases H with ⟨Hl, Hr⟩
    ihave Hr := (pointsTo_share (PosShare.mem_left_op_right fullShare.right)).1 $$ Hr
    icases Hr with ⟨Hrl, Hrr⟩
    isplitl [Hl]; · iexact Hl
    isplitl [Hrl]; · iexact Hrl
    iexact Hrr
  · iintro ⟨Hl, Hrl, Hrr⟩
    ihave Hr := (pointsTo_share (PosShare.mem_left_op_right fullShare.right)).2 $$ [Hrl Hrr]
    · isplitl [Hrl] <;> iassumption
    ihave H := (pointsTo_share (PosShare.mem_left_op_right fullShare)).2 $$ [Hl Hr]
    · isplitl [Hl] <;> iassumption
    iexact H

/-- The distinct buffers behind the five windows' arrays are three. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v4) ↦{fullShare} W main_v4) ∗ (((c : Thread nD τ).loc main_v5_0) ↦{fullShare} W main_v5_0)
          ∗ (((c : Thread nD τ).loc main_v5_1) ↦{fullShare} W main_v5_1)) := by
  unfold Pipeline.arrBufs
  exact bigSep_eq_bigSepL_of_eq [main_v4, main_v5_0, main_v5_1] (by decide) (by decide) _

/-- The windows' arrays at given contents, each a whole buffer held at its window's share. -/
theorem arrays1_eq' (c : Dev nD) (Fw : (w : Fin cfg1.W) → Buf (Elt F) ((cfg1.win w).arr.view.loc (c : Thread nD τ))) :
    (dat1 V c).arrays Fw = bigSep Finset.univ fun w => ((((c : Thread nD τ).loc (Pipeline.arrRef spec1 w)) ↦{(dat1 V c).share w} Fw w : sProp 𝕄)) := by
  unfold Dat.arrays
  exact bigSep_congr fun w _ => by rw [(arr_whole1 w).set_eq_univ]

/-- The windows' shares: a half and two quarters of the shared array, the two results whole. -/
theorem share1_0 (c : Dev nD) : (dat1 V c).share 0 = fullShare.left := by
  unfold Dat.share; dsimp only [dat1, q1]; rfl
theorem share1_1 (c : Dev nD) : (dat1 V c).share 1 = fullShare.right.left := by
  unfold Dat.share; dsimp only [dat1, q1]; rfl
theorem share1_2 (c : Dev nD) : (dat1 V c).share 2 = fullShare.right.right := by
  unfold Dat.share; dsimp only [dat1, q1]; rfl
theorem share1_3 (c : Dev nD) : (dat1 V c).share 3 = fullShare := by
  unfold Dat.share; dsimp only [dat1, q1]; rfl
theorem share1_4 (c : Dev nD) : (dat1 V c).share 4 = fullShare := by
  unfold Dat.share; dsimp only [dat1, q1]; rfl

/-- The windows' arrays at given contents, window by window: the shared array at its three shares, the two results whole. -/
theorem arrays1_eq (c : Dev nD) (Fw : (w : Fin cfg1.W) → Buf (Elt F) ((cfg1.win w).arr.view.loc (c : Thread nD τ))) :
    (dat1 V c).arrays Fw = iprop(
        (((c : Thread nD τ).loc main_v4) ↦{fullShare.left} Fw 0)
      ∗ (((c : Thread nD τ).loc main_v4) ↦{fullShare.right.left} Fw 1)
      ∗ (((c : Thread nD τ).loc main_v4) ↦{fullShare.right.right} Fw 2)
      ∗ (((c : Thread nD τ).loc main_v5_0) ↦{fullShare} Fw 3)
      ∗ (((c : Thread nD τ).loc main_v5_1) ↦{fullShare} Fw 4)) := by
  rw [arrays1_eq', bigSep_W1, share1_0, share1_1, share1_2, share1_3, share1_4]

/-- A core's unscoped buffers are the buffers behind the region's arrays and the rest. -/
theorem split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄)
          ∗ Pipeline.unscopedRest (Ix := Unit) (Name := ℕ) (U := UR sig nD τ) (Lvl := ℕ) spec1 c W) :=
  Pipeline.unscopedBufs_split₀ (nD := nD) (τ := τ) cfgs 1 winFacts₀1.arr_unscoped c W

/-- ENTRY: a core's unscoped buffers are the region's arrays as it finds them, the shared array's whole share dealt
    among its three windows, and the unscoped rest. -/
theorem entry1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [split1, arrBufs1_eq, arrays1_eq]
  iintro ⟨⟨H4, H50, H51⟩, Hrest⟩
  ihave H4 := (deal3 _).1 $$ H4
  icases H4 with ⟨Hl, Hrl, Hrr⟩
  isplitr [Hrest]
  · isplitl [Hl]; · iexact Hl
    isplitl [Hrl]; · iexact Hrl
    isplitl [Hrr]; · iexact Hrr
    isplitl [H50]; · iexact H50
    iexact H51
  · iexact Hrest

/-- The three operand windows read one array. -/
theorem A1_0 (c : Dev nD) : (dat1 V c).A 0 = V c main_v4 := A_eq1 V c 0
theorem A1_1 (c : Dev nD) : (dat1 V c).A 1 = V c main_v4 := A_eq1 V c 1
theorem A1_2 (c : Dev nD) : (dat1 V c).A 2 = V c main_v4 := A_eq1 V c 2

/-- EXIT: the region's arrays as it leaves them — the shared array untouched, its three shares put together — and the
    unscoped rest are the core's unscoped buffers at any contents that have the two results as left and agree with the
    entry contents elsewhere. -/
theorem exit1 (c : Dev nD) (h0 : V' c main_v5_0 = (dat1 V c).arrAt 3 cfg1.N) (h1 : V' c main_v5_1 = (dat1 V c).arrAt 4 cfg1.N)
    (hrest : ∀ b : Ref sig .tc, b ≠ main_v5_0 → b ≠ main_v5_1 → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c (V' c) : sProp 𝕄) := by
  have hr : (Pipeline.unscopedRest (Ix := Unit) (Name := ℕ) (U := UR sig nD τ) (Lvl := ℕ) spec1 c (V' c) : sProp 𝕄)
      = Pipeline.unscopedRest (Ix := Unit) (Name := ℕ) (U := UR sig nD τ) (Lvl := ℕ) spec1 c (V c) := by
    unfold Pipeline.unscopedRest
    exact bigSep_congr fun b hb => by
      have hn := (Finset.mem_sdiff.mp hb).2
      rw [hrest b (fun e => hn (e ▸ Finset.mem_image.mpr ⟨3, Finset.mem_univ _, rfl⟩))
        (fun e => hn (e ▸ Finset.mem_image.mpr ⟨4, Finset.mem_univ _, rfl⟩))]
  have e4 : V' c main_v4 = V c main_v4 := hrest main_v4 (by decide) (by decide)
  rw [split1, arrBufs1_eq, arrays1_eq, hr, e4, h0, h1,
    (dat1 V c).arrAt_in 0 rfl cfg1.N, (dat1 V c).arrAt_in 1 rfl cfg1.N, (dat1 V c).arrAt_in 2 rfl cfg1.N, A1_0, A1_1, A1_2]
  iintro ⟨⟨Hl, Hrl, Hrr, H50, H51⟩, Hrest⟩
  ihave H4 := (deal3 _).2 $$ [Hl Hrl Hrr]
  · isplitl [Hl]; · iexact Hl
    isplitl [Hrl]; · iexact Hrl
    iexact Hrr
  isplitr [Hrest]
  · isplitl [H4]; · iexact H4
    isplitl [H50]; · iexact H50
    iexact H51
  · iexact Hrest

end Cert.KernelIdeal.Hand

end
-- ==== Proof.IRegion2.lean ====
/-
  The second linear projection as a pipelined region, at the buffer contents `V` the region is entered with.

  The grid walks the blocks of the output; at a point the body reads one 1024 × 1024 block of the left operand and one of
  the weights and overwrites one 1024 × 1024 block of the output with their product (the body's one stored value, a pure
  function of the two loads). The two operand blocks are left in place.
-/
import proofs.«106777_j17008070492194_2_alg».proof.Proof.Gen.KernelIdeal.Launch
import proofs.«106777_j17008070492194_2_alg».proof.Proof.Gen.KernelIdeal.Skeleton
import proofs.«106777_j17008070492194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand window's current staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 1024 × 1024 staging buffer, the one rectangle every access of the body goes through. -/
abbrev r2_0 : Rect S1024x1024 := Rect.unit (s := S1024x1024) ![0, 0] S1024x1024.size inb_S1024x1024_S1024x1024_0_0

/-- The output staging buffer after the body: the product of the two operand blocks, stored over the whole buffer. -/
def out2_2 (x0 : Vec F S1024x1024 .bf16) (x1 : Vec F S1024x1024 .bf16) : Vec F S1024x1024 .f32 :=
  View.canon [⟨r2_0, k2_pay1 (View.ld x0 r2_0) (View.ld x1 r2_0)⟩]

/-- The one store covers the buffer. -/
theorem cover2_2 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

set_option maxHeartbeats 1000000 in
/-- The body on whole staging buffers: the operands' buffers are read and kept, the output's ends at the product. -/
theorem sound_kernel2 (c : Dev nD) (E : Set ℕ) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole)
    (x0 : Vec F S1024x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__linear_kernel i arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` the operand
    buffers hold their blocks and the output buffer the product of the two; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IRun.lean ====
/-
  The whole program as a run of seven segments: four stretches of host operations (casts and reshapes) around three
  pipelined regions. Between two segments every buffer that outlives a region is held at named contents: the launch
  memory, then each host stretch's results, then what each region's write-backs leave in its output arrays. Every
  execution terminates without a fault, and every such buffer ends at the last of these contents.
-/
import proofs.«106777_j17008070492194_2_alg».proof.Proof.Gen.KernelIdeal.Launch
import proofs.«106777_j17008070492194_2_alg».proof.Proof.Gen.KernelIdeal.Skeleton
import proofs.«106777_j17008070492194_2_alg».proof.Proof.Gen.KernelIdeal.Points
import proofs.«106777_j17008070492194_2_alg».proof.Proof.Gen.KernelIdeal.Regions
import proofs.«106777_j17008070492194_2_alg».proof.Proof.IRegion0
import proofs.«106777_j17008070492194_2_alg».proof.Proof.IRegion1D
import proofs.«106777_j17008070492194_2_alg».proof.Proof.ISplit1
import proofs.«106777_j17008070492194_2_alg».proof.Proof.IRegion2
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the two weight casts and the reshape of x): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its output array at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the reshape of the projected rows): the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its two output arrays at what the write-backs leave, every other buffer as entered
    (the three operand windows read one array, which no write-back touches). -/
def W4 (c : Dev nD) : Valuation τ sig (Elt F) :=
  Function.update (Function.update (W3 m ρ c) (Proc.devRef .tc main_v5_0) ((dat1 (V3 m ρ) c).arrAt 3 cfg1.N))
    (Proc.devRef .tc main_v5_1) ((dat1 (V3 m ρ) c).arrAt 4 cfg1.N)
abbrev V4 : (c : Dev nD) → (b : Ref sig .tc) → Buf (Elt F) ((c : Thread nD τ).loc b) := fun c b => W4 m ρ c b
theorem W4_v5_0 (c : Dev nD) : W4 m ρ c (Proc.devRef .tc main_v5_0) = (dat1 (V3 m ρ) c).arrAt 3 cfg1.N := by
  unfold W4
  rw [Function.update_of_ne (StableHlo.devRef_ne_of_ne (by decide) : (Proc.devRef .tc main_v5_0 : DevRef τ sig) ≠ Proc.devRef .tc main_v5_1), Function.update_self]
theorem W4_v5_1 (c : Dev nD) : W4 m ρ c (Proc.devRef .tc main_v5_1) = (dat1 (V3 m ρ) c).arrAt 4 cfg1.N := by
  unfold W4; rw [Function.update_self]
theorem W4_of_ne (c : Dev nD) (b : Ref sig .tc) (h0 : b ≠ main_v5_0) (h1 : b ≠ main_v5_1) :
    W4 m ρ c (Proc.devRef .tc b) = W3 m ρ c (Proc.devRef .tc b) := by
  unfold W4
  rw [Function.update_of_ne (StableHlo.devRef_ne_of_ne h1), Function.update_of_ne (StableHlo.devRef_ne_of_ne h0)]

/-- After the third host stretch (the reshape of the contexts): the last region's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the last region's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the last host stretch (the reshape of the output): what the program returns. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first projection: entered from every buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every buffer at `W3`, left at `W4`. Its three operand windows share one array:
    the array's whole share is dealt among them at entry and gathered at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m ρ) (V4 m ρ) c (W4_v5_0 m ρ c) (W4_v5_1 m ρ c) (fun b h0 h1 => W4_of_ne m ρ c b h0 h1)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output projection: entered from every buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- Every weakly fair execution of the program terminates without a fault, and in every final state each buffer that
    outlives the regions holds its contents under `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments are never written -/

theorem W7_of_arg (c : Dev nD) (b : Ref sig .tc) (h0 : b ∉ hostOps0_W) (h1 : b ∉ hostOps1_W) (h2 : b ∉ hostOps2_W) (h3 : b ∉ hostOps3_W)
    (k0 : ∀ w, Pipeline.arrRef spec0 w ≠ b) (k1 : b ≠ main_v5_0) (k1' : b ≠ main_v5_1) (k2 : ∀ w, Pipeline.arrRef spec2 w ≠ b) :
    W7 m ρ c b = m ((c : Thread nD τ).loc b) :=
  calc W7 m ρ c b
    _ = W6 m ρ c b := StableHlo.after_of_writes_sub hostOps3 _ hostOps3_writes h3
    _ = W5 m ρ c b := W6_of_ne m ρ c b k2
    _ = W4 m ρ c b := StableHlo.after_of_writes_sub hostOps2 _ hostOps2_writes h2
    _ = W3 m ρ c b := W4_of_ne m ρ c b k1 k1'
    _ = W2 m ρ c b := StableHlo.after_of_writes_sub hostOps1 _ hostOps1_writes h1
    _ = W1 m ρ c b := W2_of_ne m ρ c b k0
    _ = W0 m ρ c b := StableHlo.after_of_writes_sub hostOps0 _ hostOps0_writes h0
    _ = m ((c : Thread nD τ).loc b) := rfl

theorem W7_arg0 (c : Dev nD) : W7 m ρ c main_arg0 = m ((c : Thread nD τ).loc main_arg0) :=
  W7_of_arg m ρ c main_arg0 (by decide) (by decide) (by decide) (by decide) (by decide) (by decide) (by decide) (by decide)
theorem W7_arg1 (c : Dev nD) : W7 m ρ c main_arg1 = m ((c : Thread nD τ).loc main_arg1) :=
  W7_of_arg m ρ c main_arg1 (by decide) (by decide) (by decide) (by decide) (by decide) (by decide) (by decide) (by decide)
theorem W7_arg2 (c : Dev nD) : W7 m ρ c main_arg2 = m ((c : Thread nD τ).loc main_arg2) :=
  W7_of_arg m ρ c main_arg2 (by decide) (by decide) (by decide) (by decide) (by decide) (by decide) (by decide) (by decide)

/-- The frame: every weakly fair execution terminates without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_arg0 m ρ c),
     (h c _ (mem_uc main_arg1 (by decide))).trans (W7_arg1 m ρ c),
     (h c _ (mem_uc main_arg2 (by decide))).trans (W7_arg2 m ρ c)⟩) (run_all m ρ)

end Cert.KernelIdeal.Hand

end
-- ==== Proof.Spec.lean ====
/-
  What the attention layer computes, entry by entry, over the extended reals.

  Inputs: x of shape [8, 1024, 1024] (batch, token, feature), w_qkv of shape [3072, 1024] and w_proj of shape
  [1024, 1024], both stored output-row by input-column. The projected row of token (b, t) has 3072 columns,
  laid out as section (query, key, value) × head (16) × head coordinate (64). A head's score of query token q
  against key token k is the inner product of their 64 head coordinates times 1/8; a row of scores is turned
  into weights by subtracting its maximum, exponentiating and dividing by the sum; the head's context is the
  weighted sum of value rows; the 16 contexts side by side (1024 columns) are projected by w_proj.
-/
import Idealize.ShloMosaic.PureOps.Ideal
import Idealize.ShloMosaic.Lib.ValueIdx

noncomputable section

open scoped BigOperators

namespace Cert.Spec

open Idealize.ShloMosaic Idealize.ShloMosaic.ValueIdx

/-- The three argument arrays and the two results, as functions of an index. -/
abbrev ArrX : Type := (⟨3, ![8, 1024, 1024]⟩ : Shape).Idx → EReal
abbrev ArrWqkv : Type := (⟨2, ![3072, 1024]⟩ : Shape).Idx → EReal
abbrev ArrWproj : Type := (⟨2, ![1024, 1024]⟩ : Shape).Idx → EReal
abbrev ArrAttw : Type := (⟨4, ![8, 16, 1024, 1024]⟩ : Shape).Idx → EReal

/-- The scale 1/8, as the float word both programs carry. -/
def scale : EReal := Ideal.ofBits .f32 0x3E000000#32
/-- The word of minus infinity a row maximum starts from. -/
def negInf : EReal := Ideal.ofBits .f32 0xFF800000#32

/-- Column of the projected row: section `s` (0 query, 1 key, 2 value), head `h`, head coordinate `d`. -/
def colOf (s : Fin 3) (h : Fin 16) (d : Fin 64) : Fin 3072 :=
  ⟨s.val * 1024 + h.val * 64 + d.val, by have := s.isLt; have := h.isLt; have := d.isLt; omega⟩

/-- Head of a context column, and the coordinate inside the head. -/
def headOf (c : Fin 1024) : Fin 16 := ⟨c.val / 64, by have := c.isLt; omega⟩
def coordOf (c : Fin 1024) : Fin 64 := ⟨c.val % 64, by omega⟩

/-- A row of scores to a row of weights: exp (s k − max s) / ∑ exp (s j − max s). -/
def rowMax (s : Fin 1024 → EReal) : EReal := (Finset.univ : Finset (Fin 1024)).fold max negInf s
def rowExp (s : Fin 1024 → EReal) (k : Fin 1024) : EReal := Ideal.exp (s k - rowMax s)
def softmax (s : Fin 1024 → EReal) (k : Fin 1024) : EReal := Ideal.div (rowExp s k) (∑ j : Fin 1024, rowExp s j)

/-- The projected row of token (b, t), column e. -/
def qkv (x : ArrX) (wq : ArrWqkv) (b : Fin 8) (t : Fin 1024) (e : Fin 3072) : EReal :=
  ∑ d : Fin 1024, x (ix3 b t d) * wq (ix2 e d)

/-- Head h's scaled score of query token q against key token k, in batch b. -/
def score (x : ArrX) (wq : ArrWqkv) (b : Fin 8) (h : Fin 16) (q k : Fin 1024) : EReal :=
  (∑ d : Fin 64, qkv x wq b q (colOf 0 h d) * qkv x wq b k (colOf 1 h d)) * scale

/-- The attention weights, the second result. -/
def attw (x : ArrX) (wq : ArrWqkv) : ArrAttw :=
  fun i => softmax (score x wq (i 0) (i 1) (i 2)) (i 3)

/-- Head h's context of token (b, t), coordinate d. -/
def ctx (x : ArrX) (wq : ArrWqkv) (b : Fin 8) (t : Fin 1024) (h : Fin 16) (d : Fin 64) : EReal :=
  ∑ k : Fin 1024, softmax (score x wq b h t) k * qkv x wq b k (colOf 2 h d)

/-- The projected output, the first result. -/
def out (x : ArrX) (wq : ArrWqkv) (wp : ArrWproj) : ArrX :=
  fun i => ∑ c : Fin 1024, ctx x wq (i 0) (i 1) (headOf c) (coordOf c) * wp (ix2 (i 2) c)

end Cert.Spec

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.PayLinear.lean ====
/-
  The two linear projection kernels' stored values, entry by entry, over the extended reals.

  Both bodies multiply an activation block [1024, 1024] by a weight block [1024, 1024] stored output-row by
  input-column, contracting the second axis of both: entry (p, n) is ∑ k, x (p, k) · w (n, k). Changes of float
  format are the identity on extended reals, and a shape cast between equal shapes moves nothing.
-/
import proofs.«106777_j17008070492194_2_alg».proof.Proof.Gen.KernelIdeal.Skeleton
import proofs.«106777_j17008070492194_2_alg».proof.Proof.Spec
import proofs.«106777_j17008070492194_2_alg».proof.Proof.LibRank2
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen

/-- A shape cast between equal shapes reads the operand at the same index. -/
theorem shapeCast_same_apply {α : Type} {s : Shape} (x : s.Idx → α) (h : s.ShapeCasts s) (j : s.Idx) :
    shapeCast s x h j = x j :=
  shapeCast_apply x h j j rfl

/-- The square product's dimension record contracts the second axis of both operands. -/
theorem dot_square_eq :
    dot_S1024x1024_S1024x1024_S1024x1024_1_1_0_0_n_n = DotDims.transposedRhs 1024 1024 1024 := rfl

/-- The first projection's stored block: entry (p, n) is ∑ k, x (p, k) · w (n, k). -/
theorem k0_pay1_apply (x : Vec Ideal S1024x1024 .f32) (w : Vec Ideal S1024x1024 .bf16) (p n : Fin 1024) :
    k0_pay1 (F := Ideal) x w (ix2 p n) = ∑ k : Fin 1024, x (ix2 p k) * w (ix2 n k) := by
  refine (Cert.LibRank2.matmul_rhsT_zero_apply (M := 1024) (K := 1024) (N := 1024) none
    (truncf .bf16 (shapeCast S1024x1024 x shapeCasts_S1024x1024_S1024x1024) bitsLt_bf16_f32)
    (shapeCast S1024x1024 w shapeCasts_S1024x1024_S1024x1024) p n).trans ?_
  refine Finset.sum_congr rfl fun k _ => ?_
  exact congrArg₂ (· * ·) (shapeCast_same_apply x _ (ix2 p k)) (shapeCast_same_apply w _ (ix2 n k))

/-- The last projection's stored block: entry (p, n) is ∑ k, x (p, k) · w (n, k). -/
theorem k2_pay1_apply (x w : Vec Ideal S1024x1024 .bf16) (p n : Fin 1024) :
    k2_pay1 (F := Ideal) x w (ix2 p n) = ∑ k : Fin 1024, x (ix2 p k) * w (ix2 n k) := by
  refine (Cert.LibRank2.matmul_rhsT_zero_apply (M := 1024) (K := 1024) (N := 1024) none
    (shapeCast S1024x1024 x shapeCasts_S1024x1024_S1024x1024)
    (shapeCast S1024x1024 w shapeCasts_S1024x1024_S1024x1024) p n).trans ?_
  refine Finset.sum_congr rfl fun k _ => ?_
  exact congrArg₂ (· * ·) (shapeCast_same_apply x _ (ix2 p k)) (shapeCast_same_apply w _ (ix2 n k))

end Cert.KernelIdeal.Pay

end
-- ==== Proof.KSpec.lean ====
/-
  The three kernels as whole-array functions over the extended reals, and the kernel program as their composite.

  The linear kernel computes X·Wᵀ for a [M, 1024] array X and a [N, 1024] array W. The attention kernel reads the
  [8, 1024, 3072] array of projected rows (columns laid out as section × head × head coordinate) and writes the
  attention weights [8, 16, 1024, 1024] and the contexts [8, 1024, 1024] (16 heads side by side).
-/
import proofs.«106777_j17008070492194_2_alg».proof.Proof.Spec

noncomputable section

open scoped BigOperators

namespace Cert.KSpec

open Idealize.ShloMosaic Idealize.ShloMosaic.ValueIdx

/-- X·Wᵀ: entry (r, e) is ∑ k, X (r, k) · W (e, k). -/
def lin {M N : ℕ} (a : (⟨2, ![M, 1024]⟩ : Shape).Idx → EReal) (w : (⟨2, ![N, 1024]⟩ : Shape).Idx → EReal) :
    (⟨2, ![M, N]⟩ : Shape).Idx → EReal :=
  fun i => ∑ k : Fin 1024, a (ix2 (i 0) k) * w (ix2 (i 1) k)

/-- The projected rows, batch by token by column. -/
abbrev ArrP : Type := (⟨3, ![8, 1024, 3072]⟩ : Shape).Idx → EReal

/-- Head h's row of scaled scores for query token q of batch b, read off the projected rows. -/
def hscore (p : ArrP) (b : Fin 8) (h : Fin 16) (q : Fin 1024) : Fin 1024 → EReal :=
  fun k => (∑ d : Fin 64, p (ix3 b q (Cert.Spec.colOf 0 h d)) * p (ix3 b k (Cert.Spec.colOf 1 h d))) * Cert.Spec.scale

/-- The attention weights from the projected rows. -/
def attw (p : ArrP) : Cert.Spec.ArrAttw :=
  fun i => Cert.Spec.softmax (hscore p (i 0) (i 1) (i 2)) (i 3)

/-- The contexts from the projected rows: column c belongs to head c / 64, coordinate c % 64. -/
def ctx (p : ArrP) : Cert.Spec.ArrX :=
  fun i => ∑ k : Fin 1024, Cert.Spec.softmax (hscore p (i 0) (Cert.Spec.headOf (i 2)) (i 1)) k
    * p (ix3 (i 0) k (Cert.Spec.colOf 2 (Cert.Spec.headOf (i 2)) (Cert.Spec.coordOf (i 2))))

end Cert.KSpec

end
-- ==== Proof.IValue0.lean ====
/-
  The first linear projection's output array after its region, entry by entry, over the extended reals.

  The grid's points write back the 1024 × 1024 blocks of the [8192, 3072] output; the block at block row i1 and
  block column i0 is the product of block row i1 of the activations with block row i0 of the weights, contracted over
  all 1024 input columns. The blocks tile the output, so the array ends as X·Wᵀ.
-/
import proofs.«106777_j17008070492194_2_alg».proof.Proof.IRegion0
import proofs.«106777_j17008070492194_2_alg».proof.Proof.PayLinear
import proofs.«106777_j17008070492194_2_alg».proof.Proof.KSpec
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The whole output as one function of the two operand arrays: X·Wᵀ. -/
abbrev G0 (a : S8192x1024.Idx → EReal) (w : S3072x1024.Idx → EReal) : S8192x3072.Idx → EReal :=
  Cert.KSpec.lin (M := 8192) (N := 3072) a w

/-- The index maps over the grid: the activations' block row is the output's, the weights' block row is the output's
    block column, both operands' block column is 0, and the output's block indices stay in range. -/
theorem idx_facts0 : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 2 :=
  (by decide +kernel : ∀ t : Fin grid0.N, _)

/-- Every block of the output is some point's. -/
theorem idx_onto0 : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

/-- X·Wᵀ at an index whose coordinates are `p` and `n`. -/
theorem lin_apply_of {M N : ℕ} (a : (⟨2, ![M, 1024]⟩ : Shape).Idx → EReal) (w : (⟨2, ![N, 1024]⟩ : Shape).Idx → EReal)
    (i : (⟨2, ![M, N]⟩ : Shape).Idx) (p : Fin M) (n : Fin N) (hp : (i 0).val = p.val) (hn : (i 1).val = n.val) :
    Cert.KSpec.lin a w i = ∑ k : Fin 1024, a (ix2 p k) * w (ix2 n k) := by
  have e0 : (i 0 : Fin M) = p := Fin.ext hp
  have e1 : (i 1 : Fin N) = n := Fin.ext hn
  show ∑ k : Fin 1024, a (ix2 (i 0) k) * w (ix2 (i 1) k) = _
  rw [e0, e1]

/-- The activations' block at point `t`, read at a block index, is the array at the block's offset plus that index. -/
theorem iblk0_0_apply (c : Dev nD) (t : Fin cfg0.N) (y : S1024x1024.Idx) (i : S8192x1024.Idx)
    (h0 : (i 0).val = win0_0.index t (0 : Fin 2) * 1024 + (y 0).val)
    (h1 : (i 1).val = win0_0.index t (1 : Fin 2) * 1024 + (y 1).val) :
    (iblk0 V c 0 t : S1024x1024.Idx → EReal) y = (V c main_v2 : S8192x1024.Idx → EReal) i := by
  unfold iblk0
  rw [View.read_apply]
  show (V c main_v2 : S8192x1024.Idx → EReal) _ = V c main_v2 i
  refine congrArg _ ?_
  funext a
  apply Fin.ext
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- The weights' block at point `t`, read at a block index, is the array at the block's offset plus that index. -/
theorem iblk0_1_apply (c : Dev nD) (t : Fin cfg0.N) (y : S1024x1024.Idx) (i : S3072x1024.Idx)
    (h0 : (i 0).val = win0_1.index t (0 : Fin 2) * 1024 + (y 0).val)
    (h1 : (i 1).val = win0_1.index t (1 : Fin 2) * 1024 + (y 1).val) :
    (iblk0 V c 1 t : S1024x1024.Idx → EReal) y = (V c main_v0 : S3072x1024.Idx → EReal) i := by
  unfold iblk0
  rw [View.read_apply]
  show (V c main_v0 : S3072x1024.Idx → EReal) _ = V c main_v0 i
  refine congrArg _ ?_
  funext a
  apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- What point `t` writes back is block `t` of X·Wᵀ of the operand arrays as the region finds them. -/
theorem flushed0_eq (c : Dev nD) (t : Fin cfg0.N) :
    (dat0 (F := Ideal) V c).flushed 2 t
      = ((cfg0.win 2).blk t).view.read (Elt Ideal) (G0 (V c main_v2) (V c main_v0)) := by
  show (cfg0.win 2).cut (grid0.coords t) ((dat0 V c).after 2 t) = _
  rw [after0_2]
  unfold out0_2
  rw [View.canon_unit_zero hz0]
  simp only [View.ld_unit_zero (S := S1024x1024) hz0]
  obtain ⟨e0, e1, e2, e3, e4, e5⟩ := idx_facts0 t
  funext j
  have hp : (j 0).val < 1024 := (j 0).isLt
  have hn : (j 1).val < 1024 := (j 1).isLt
  have hx : (cfg0.win 2).xinj (grid0.coords t) j = ix2 (⟨(j 0).val, hp⟩ : Fin 1024) (⟨(j 1).val, hn⟩ : Fin 1024) :=
    funext fun a => by
      match a with
      | ⟨0, _⟩ => rfl
      | ⟨1, _⟩ => rfl
  refine (congrArg (k0_pay1 (F := Ideal) (iblk0 V c 0 t) (iblk0 V c 1 t)) hx).trans ?_
  refine (k0_pay1_apply _ _ _ _).trans ?_
  have hP : win0_2.index t (0 : Fin 2) * 1024 + (j 0).val < 8192 := by omega
  have hN : win0_2.index t (1 : Fin 2) * 1024 + (j 1).val < 3072 := by omega
  refine (Finset.sum_congr rfl fun k _ => ?_).trans
    (lin_apply_of (M := 8192) (N := 3072) (V c main_v2) (V c main_v0) (((cfg0.win 2).blk t).view.emb j)
      ⟨win0_2.index t (0 : Fin 2) * 1024 + (j 0).val, hP⟩ ⟨win0_2.index t (1 : Fin 2) * 1024 + (j 1).val, hN⟩
      (by show win0_2.index t (0 : Fin 2) * 1024 + 1 * (j 0).val = win0_2.index t (0 : Fin 2) * 1024 + (j 0).val; omega)
      (by show win0_2.index t (1 : Fin 2) * 1024 + 1 * (j 1).val = win0_2.index t (1 : Fin 2) * 1024 + (j 1).val; omega)).symm
  refine congrArg₂ (· * ·)
    (iblk0_0_apply V c t (ix2 (⟨(j 0).val, hp⟩ : Fin 1024) k) (ix2 ⟨win0_2.index t (0 : Fin 2) * 1024 + (j 0).val, hP⟩ k) ?_ ?_)
    (iblk0_1_apply V c t (ix2 (⟨(j 1).val, hn⟩ : Fin 1024) k) (ix2 ⟨win0_2.index t (1 : Fin 2) * 1024 + (j 1).val, hN⟩ k) ?_ ?_)
  · show win0_2.index t (0 : Fin 2) * 1024 + (j 0).val = win0_0.index t (0 : Fin 2) * 1024 + (j 0).val; omega
  · show k.val = win0_0.index t (1 : Fin 2) * 1024 + k.val; omega
  · show win0_2.index t (1 : Fin 2) * 1024 + (j 1).val = win0_1.index t (0 : Fin 2) * 1024 + (j 1).val; omega
  · show k.val = win0_1.index t (1 : Fin 2) * 1024 + k.val; omega

/-- An index of the output is in point `t`'s block iff each coordinate is in the block's range on its axis. -/
theorem mem_blk0 (t : Fin cfg0.N) (i : S8192x3072.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- Every index of the output is in some point's block. -/
theorem cover0 (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ := idx_onto0 ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The output array after the region: X·Wᵀ of the operand arrays as the region finds them. -/
theorem final0 (c : Dev nD) :
    (dat0 (F := Ideal) V c).arrAt 2 cfg0.N
      = Cert.KSpec.lin (M := 8192) (N := 3072) (V c main_v2) (V c main_v0) :=
  (dat0 V c).arrAt_eq_of_cover 2 (G0 (V c main_v2) (V c main_v0)) (fun t _ => flushed0_eq V c t) (cover0)

end Cert.KernelIdeal.HandValue

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.PayAttn.lean ====
/-
  The attention kernel's stored values, entry by entry, over the extended reals.

  One run of the body serves a pair of heads. For each head it forms the scores of every query row against every
  key row (inner products of the 64 head coordinates, times 1/8), turns each row of scores into weights (subtract
  the row's maximum, exponentiate, divide by the row's sum), and multiplies the weights by the value rows. The two
  heads' weights are stacked along a new leading axis; the two heads' contexts are laid side by side, 64 columns
  each. Changes of float format are the identity on extended reals.
-/
import proofs.«106777_j17008070492194_2_alg».proof.Proof.Gen.KernelIdeal.Skeleton
import proofs.«106777_j17008070492194_2_alg».proof.Proof.Spec
import proofs.«106777_j17008070492194_2_alg».proof.Proof.LibRank2
import proofs.«106777_j17008070492194_2_alg».proof.Proof.LibColumnCast
import proofs.«106777_j17008070492194_2_alg».proof.Proof.LibColumnBroadcast
import proofs.«106777_j17008070492194_2_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen

/-- The scaled scores of query row `r` against every key row: the inner product over the 64 head coordinates,
    times 1/8. -/
def scoresOf (q k : Vec Ideal S1x1024x64 .bf16) (r : Fin 1024) : Fin 1024 → EReal :=
  fun c => (∑ d : Fin 64, q (ix3 (0 : Fin 1) r d) * k (ix3 (0 : Fin 1) c d)) * Cert.Spec.scale

/-- The score product's dimension record contracts the second axis of both operands. -/
theorem dot_scores_eq :
    dot_S1024x64_S1024x64_S1024x1024_1_1_0_0_n_n = DotDims.transposedRhs 1024 64 1024 := rfl

/-- The context product's dimension record contracts the left operand's second axis with the right's first. -/
theorem dot_context_eq :
    dot_S1024x1024_S1024x64_S1024x64_1_0_0_1_n_n = DotDims.plain 1024 1024 64 := rfl

/-- The scores: entry (r, c) is the scaled inner product of query row r and key row c. -/
theorem k1_pay7_apply (q k : Vec Ideal S1x1024x64 .bf16) (r c : Fin 1024) :
    k1_pay7 (F := Ideal) q k (ix2 r c) = scoresOf q k r c := by
  show _ = (∑ d : Fin 64, q (ix3 (0 : Fin 1) r d) * k (ix3 (0 : Fin 1) c d)) * Cert.Spec.scale
  refine congrArg (· * Cert.Spec.scale) ?_
  refine (Cert.LibRank2.matmul_rhsT_zero_apply (M := 1024) (K := 64) (N := 1024) none
    (shapeCast S1024x64 q shapeCasts_S1x1024x64_S1024x64)
    (shapeCast S1024x64 k shapeCasts_S1x1024x64_S1024x64) r c).trans ?_
  refine Finset.sum_congr rfl fun d _ => ?_
  exact congrArg₂ (· * ·) (shapeCast_1ab_ab_apply q _ r d) (shapeCast_1ab_ab_apply k _ c d)

/-- The row maxima of the scores, as a column: entry (r, ·) is the maximum of row r. -/
theorem k1_pay8_apply (q k : Vec Ideal S1x1024x64 .bf16) (r : Fin 1024) (u : Fin 1) :
    k1_pay8 (F := Ideal) q k (ix2 r u) = Cert.Spec.rowMax (scoresOf q k r) := by
  refine (Cert.LibColumnCast.shapeCast_a_a1_apply
    (multiReduction .maximumf [1] S1024 (k1_pay7 (F := Ideal) q k) 0xFF800000#32 reduces_S1024x1024_S1024 (.inl rfl) rfl)
    shapeCasts_S1024_S1024x1 r u).trans ?_
  refine (Cert.LibRank2.max_last (k1_pay7 (F := Ideal) q k) 0xFF800000#32 reduces_S1024x1024_S1024 (.inl rfl) rfl r).trans ?_
  exact congrArg ((Finset.univ : Finset (Fin 1024)).fold max Cert.Spec.negInf) (funext fun c => k1_pay7_apply q k r c)

/-- A row of scores `s` with a column `m` of subtrahends turned into weights: entry (r, c) is
    exp (s (r, c) − m r) divided by the sum over the row of those exponentials. -/
theorem k1_pay1_apply_of (s : FVec Ideal S1024x1024 .f32) (m : FVec Ideal S1024x1 .f32) (r c : Fin 1024) :
    k1_pay1 (F := Ideal) s m (ix2 r c)
      = Ideal.div (Ideal.exp (s (ix2 r c) - m (ix2 r (0 : Fin 1))))
          (∑ j : Fin 1024, Ideal.exp (s (ix2 r j) - m (ix2 r (0 : Fin 1)))) := by
  have he : ∀ j : Fin 1024,
      exp (subf s (broadcastTo S1024x1024 m broadcasts_S1024x1_S1024x1024)) (ix2 r j)
        = Ideal.exp (s (ix2 r j) - m (ix2 r (0 : Fin 1))) := fun j =>
    congrArg (fun t => Ideal.exp (s (ix2 r j) - t))
      (Cert.LibColumnBroadcast.broadcastTo_a1_ab_apply m broadcasts_S1024x1_S1024x1024 r j)
  refine congrArg₂ Ideal.div (he c) ?_
  refine (Cert.LibColumnBroadcast.broadcastTo_a1_ab_apply _ broadcasts_S1024x1_S1024x1024 r c).trans ?_
  refine (Cert.LibColumnCast.shapeCast_a_a1_apply _ shapeCasts_S1024_S1024x1 r (0 : Fin 1)).trans ?_
  refine (Cert.LibRank2.sum_last _ 0x00000000#32 reduces_S1024x1024_S1024 (.inl rfl) rfl r).trans ?_
  exact Finset.sum_congr rfl fun j _ => he j

/-- The first head's weights are the second head's arithmetic applied to the first head's scores and row maxima. -/
theorem k1_pay4_eq (q k : Vec Ideal S1x1024x64 .bf16) :
    k1_pay4 (F := Ideal) q k = k1_pay1 (F := Ideal) (k1_pay7 q k) (k1_pay8 q k) := rfl

/-- The second head's weights: entry (r, c) is the softmax of row r of the scores, at c. -/
theorem k1_pay1_apply (q k : Vec Ideal S1x1024x64 .bf16) (r c : Fin 1024) :
    k1_pay1 (F := Ideal) (k1_pay7 q k) (k1_pay8 q k) (ix2 r c) = Cert.Spec.softmax (scoresOf q k r) c := by
  refine (k1_pay1_apply_of (k1_pay7 q k) (k1_pay8 q k) r c).trans ?_
  have he : ∀ j : Fin 1024,
      Ideal.exp (k1_pay7 (F := Ideal) q k (ix2 r j) - k1_pay8 (F := Ideal) q k (ix2 r (0 : Fin 1)))
        = Cert.Spec.rowExp (scoresOf q k r) j := fun j =>
    congrArg₂ (fun a b => Ideal.exp (a - b)) (k1_pay7_apply q k r j) (k1_pay8_apply q k r 0)
  exact congrArg₂ Ideal.div (he c) (Finset.sum_congr rfl fun j _ => he j)

/-- The first head's weights: entry (r, c) is the softmax of row r of the scores, at c. -/
theorem k1_pay4_apply (q k : Vec Ideal S1x1024x64 .bf16) (r c : Fin 1024) :
    k1_pay4 (F := Ideal) q k (ix2 r c) = Cert.Spec.softmax (scoresOf q k r) c :=
  (congrFun (k1_pay4_eq q k) (ix2 r c)).trans (k1_pay1_apply q k r c)

/-- The stacked weights: head 0 of the pair reads the first operand, head 1 the second head's weights. -/
theorem k1_pay2_apply_of (a s : FVec Ideal S1024x1024 .f32) (m : FVec Ideal S1024x1 .f32)
    (u : Fin 1) (h : Fin 2) (r c : Fin 1024) :
    k1_pay2 (F := Ideal) a s m (ix4 u h r c)
      = if h.val = 0 then a (ix2 r c) else k1_pay1 (F := Ideal) s m (ix2 r c) := by
  refine (shapeCast_abc_1abc_apply
    (concatenate S2x1024x1024 0
      [⟨S1x1024x1024, shapeCast S1x1024x1024 a shapeCasts_S1024x1024_S1x1024x1024⟩,
       ⟨S1x1024x1024, shapeCast S1x1024x1024 (k1_pay1 (F := Ideal) s m) shapeCasts_S1024x1024_S1x1024x1024⟩]
      concatenates_S1x1024x1024_S1x1024x1024_S2x1024x1024_d0)
    shapeCasts_S2x1024x1024_S1x2x1024x1024 u h r c).trans ?_
  by_cases h0 : h.val = 0
  · rw [if_pos h0]
    refine (concatenate_pair_apply_left (0 : Fin S2x1024x1024.rank) _ _
      concatenates_S1x1024x1024_S1x1024x1024_S2x1024x1024_d0 (ix3 h r c) rfl (ix3 (0 : Fin 1) r c) ?_).trans ?_
    · intro b
      match b with
      | ⟨0, _⟩ => exact h0.symm
      | ⟨1, _⟩ => rfl
      | ⟨2, _⟩ => rfl
    · exact shapeCast_ab_1ab_apply a shapeCasts_S1024x1024_S1x1024x1024 (0 : Fin 1) r c
  · rw [if_neg h0]
    refine (concatenate_pair_apply_right (0 : Fin S2x1024x1024.rank) _ _
      concatenates_S1x1024x1024_S1x1024x1024_S2x1024x1024_d0 (ix3 h r c) rfl rfl (ix3 (0 : Fin 1) r c) ?_ ?_).trans ?_
    · intro b hb
      match b, hb with
      | ⟨0, _⟩, hb => exact absurd rfl hb
      | ⟨1, _⟩, _ => rfl
      | ⟨2, _⟩, _ => rfl
    · show 0 + 1 = h.val
      have := h.isLt
      omega
    · exact shapeCast_ab_1ab_apply (k1_pay1 (F := Ideal) s m) shapeCasts_S1024x1024_S1x1024x1024 (0 : Fin 1) r c

/-- The stacked weights of the pair of heads. -/
theorem k1_pay2_apply (v0 v2 v21 v23 : Vec Ideal S1x1024x64 .bf16) (u : Fin 1) (h : Fin 2) (r c : Fin 1024) :
    k1_pay2 (F := Ideal) (k1_pay4 v0 v2) (k1_pay7 v21 v23) (k1_pay8 v21 v23) (ix4 u h r c)
      = if h.val = 0 then Cert.Spec.softmax (scoresOf v0 v2 r) c else Cert.Spec.softmax (scoresOf v21 v23 r) c := by
  refine (k1_pay2_apply_of _ _ _ u h r c).trans ?_
  rw [k1_pay4_apply v0 v2 r c, k1_pay1_apply v21 v23 r c]

/-- A head's value rows with the leading unit axis dropped. -/
theorem k1_pay6_apply (v : Vec Ideal S1x1024x64 .bf16) (k : Fin 1024) (d : Fin 64) :
    k1_pay6 (F := Ideal) v (ix2 k d) = v (ix3 (0 : Fin 1) k d) :=
  shapeCast_1ab_ab_apply v shapeCasts_S1x1024x64_S1024x64 k d

/-- The first head's context: entry (r, d) is the weighted sum of the value rows' coordinate d. -/
theorem k1_pay5_apply (q k v : Vec Ideal S1x1024x64 .bf16) (r : Fin 1024) (d : Fin 64) :
    k1_pay5 (F := Ideal) q k v (ix2 r d)
      = ∑ j : Fin 1024, Cert.Spec.softmax (scoresOf q k r) j * v (ix3 (0 : Fin 1) j d) := by
  refine (PlainDot.matmul_zero_apply (M := 1024) (K := 1024) (N := 64) none
    (truncf .bf16 (k1_pay4 (F := Ideal) q k) bitsLt_bf16_f32)
    (shapeCast S1024x64 v shapeCasts_S1x1024x64_S1024x64) (ix2 r d)).trans ?_
  refine Finset.sum_congr rfl fun j _ => ?_
  exact congrArg₂ (· * ·) (k1_pay4_apply q k r j) (shapeCast_1ab_ab_apply v shapeCasts_S1x1024x64_S1024x64 j d)

/-- The two contexts side by side: the first 64 columns read the first operand, the last 64 are the second head's
    weights times the second operand. -/
theorem k1_pay3_apply_of (a b : FVec Ideal S1024x64 .bf16) (s : FVec Ideal S1024x1024 .f32) (m : FVec Ideal S1024x1 .f32)
    (u : Fin 1) (r : Fin 1024) (c : Fin 128) :
    k1_pay3 (F := Ideal) a b s m (ix3 u r c)
      = if h : c.val < 64 then a (ix2 r ⟨c.val, h⟩)
        else ∑ j : Fin 1024, k1_pay1 (F := Ideal) s m (ix2 r j) * b (ix2 j ⟨c.val - 64, by have := c.isLt; omega⟩) := by
  refine (shapeCast_ab_1ab_apply
    (concatenate S1024x128 1
      [⟨S1024x64, a⟩,
       ⟨S1024x64, truncf .bf16 (matmul dot_S1024x1024_S1024x64_S1024x64_1_0_0_1_n_n none
          (truncf .bf16 (k1_pay1 (F := Ideal) s m) bitsLt_bf16_f32) b (constant S1024x64 .f32 0x00000000#32)) bitsLt_bf16_f32⟩]
      concatenates_S1024x64_S1024x64_S1024x128_d1)
    shapeCasts_S1024x128_S1x1024x128 u r c).trans ?_
  by_cases h : c.val < 64
  · rw [dif_pos h]
    refine concatenate_pair_apply_left (1 : Fin S1024x128.rank) _ _
      concatenates_S1024x64_S1024x64_S1024x128_d1 (ix2 r c) rfl (ix2 r (⟨c.val, h⟩ : Fin 64)) ?_
    intro e
    match e with
    | ⟨0, _⟩ => rfl
    | ⟨1, _⟩ => rfl
  · rw [dif_neg h]
    have hc : c.val - 64 < 64 := by have := c.isLt; omega
    refine (concatenate_pair_apply_right (1 : Fin S1024x128.rank) _ _
      concatenates_S1024x64_S1024x64_S1024x128_d1 (ix2 r c) rfl rfl (ix2 r (⟨c.val - 64, hc⟩ : Fin 64)) ?_ ?_).trans ?_
    · intro e he
      match e, he with
      | ⟨0, _⟩, _ => rfl
      | ⟨1, _⟩, he => exact absurd rfl he
    · show (c.val - 64) + 64 = c.val
      omega
    · exact PlainDot.matmul_zero_apply (M := 1024) (K := 1024) (N := 64) none
        (truncf .bf16 (k1_pay1 (F := Ideal) s m) bitsLt_bf16_f32) b (ix2 r (⟨c.val - 64, hc⟩ : Fin 64))

/-- The pair of heads' contexts, 64 columns each. -/
theorem k1_pay3_apply (v0 v2 v4 v21 v23 v25 : Vec Ideal S1x1024x64 .bf16) (u : Fin 1) (r : Fin 1024) (c : Fin 128) :
    k1_pay3 (F := Ideal) (k1_pay5 v0 v2 v4) (k1_pay6 v25) (k1_pay7 v21 v23) (k1_pay8 v21 v23) (ix3 u r c)
      = if h : c.val < 64 then
          ∑ k : Fin 1024, Cert.Spec.softmax (scoresOf v0 v2 r) k * v4 (ix3 (0 : Fin 1) k ⟨c.val, h⟩)
        else
          ∑ k : Fin 1024, Cert.Spec.softmax (scoresOf v21 v23 r) k * v25 (ix3 (0 : Fin 1) k ⟨c.val - 64, by omega⟩) := by
  refine (k1_pay3_apply_of _ _ _ _ u r c).trans ?_
  by_cases h : c.val < 64
  · rw [dif_pos h, dif_pos h]
    exact k1_pay5_apply v0 v2 v4 r ⟨c.val, h⟩
  · rw [dif_neg h, dif_neg h]
    refine Finset.sum_congr rfl fun k _ => ?_
    exact congrArg₂ (· * ·) (k1_pay1_apply v21 v23 r k) (k1_pay6_apply v25 k _)

end Cert.KernelIdeal.Pay

end
-- ==== Proof.IValue1.lean ====
/-
  The attention region's two output arrays after the region, entry by entry, over the extended reals.

  The grid walks batch b × head pair hp. The three operand windows read one array of projected rows, [8, 1024, 3072],
  at column blocks hp, 8 + hp and 16 + hp of 128 columns: the pair's query, key and value columns, each block two
  heads of 64 columns. The point writes back one [1, 2, 1024, 1024] block of the weights (batch b, heads 2hp and
  2hp + 1) and one [1, 1024, 128] block of the contexts (batch b, columns 128hp … 128hp + 127). The blocks tile both
  arrays, so the weights end as the softmax of each head's scaled scores and the contexts as the weighted sums of
  the value rows.
-/
import proofs.«106777_j17008070492194_2_alg».proof.Proof.IRegion1D
import proofs.«106777_j17008070492194_2_alg».proof.Proof.PayAttn
import proofs.«106777_j17008070492194_2_alg».proof.Proof.KSpec
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1_3 : (![0, 0, 0] : Fin 3 → Nat) = fun _ => 0 := funext fun a => by fin_cases a <;> rfl
theorem hz1_4 : (![0, 0, 0, 0] : Fin 4 → Nat) = fun _ => 0 := funext fun a => by fin_cases a <;> rfl

/-! ## Columns of the projected rows -/

theorem colOf0_val (h : Fin 16) (d : Fin 64) : (Cert.Spec.colOf 0 h d).val = h.val * 64 + d.val := by
  show 0 * 1024 + h.val * 64 + d.val = _
  omega
theorem colOf1_val (h : Fin 16) (d : Fin 64) : (Cert.Spec.colOf 1 h d).val = 1024 + h.val * 64 + d.val := by
  show 1 * 1024 + h.val * 64 + d.val = _
  omega
theorem colOf2_val (h : Fin 16) (d : Fin 64) : (Cert.Spec.colOf 2 h d).val = 2048 + h.val * 64 + d.val := by
  show 2 * 1024 + h.val * 64 + d.val = _
  omega

/-! ## The two halves of an operand block -/

/-- The low half of a [1, 1024, 128] block, at (0, r, d), is the block at (0, r, d). -/
theorem ld_lo (x : Vec Ideal S1x1024x128 .bf16) (r : Fin 1024) (d : Fin 64) :
    View.ld x r1_lo (ix3 (0 : Fin 1) r d) = x (ix3 (0 : Fin 1) r (⟨d.val, by omega⟩ : Fin 128)) := by
  show x (r1_lo.idx (ix3 (0 : Fin 1) r d)) = _
  refine congrArg x ?_
  funext a
  apply Fin.ext
  match a with
  | ⟨0, _⟩ => show 0 + 1 * 0 = 0; rfl
  | ⟨1, _⟩ => show 0 + 1 * r.val = r.val; omega
  | ⟨2, _⟩ => show 0 + 1 * d.val = d.val; omega

/-- The high half of a [1, 1024, 128] block, at (0, r, d), is the block at (0, r, 64 + d). -/
theorem ld_hi (x : Vec Ideal S1x1024x128 .bf16) (r : Fin 1024) (d : Fin 64) :
    View.ld x r1_hi (ix3 (0 : Fin 1) r d) = x (ix3 (0 : Fin 1) r (⟨64 + d.val, by omega⟩ : Fin 128)) := by
  show x (r1_hi.idx (ix3 (0 : Fin 1) r d)) = _
  refine congrArg x ?_
  funext a
  apply Fin.ext
  match a with
  | ⟨0, _⟩ => show 0 + 1 * 0 = 0; rfl
  | ⟨1, _⟩ => show 0 + 1 * r.val = r.val; omega
  | ⟨2, _⟩ => show 64 + 1 * d.val = 64 + d.val; omega

/-! ## The operand blocks as pieces of the projected rows -/

/-- The index maps over the grid: every window's batch is the point's; the query, key and value windows sit at
    column blocks hp, 8 + hp and 16 + hp; the context block at column block hp; the weights block at head pair hp. -/
theorem idx_facts1 : ∀ t : Fin cfg1.N,
    win1_0.index t (0 : Fin 3) = win1_4.index t (0 : Fin 4) ∧ win1_0.index t (1 : Fin 3) = 0
    ∧ win1_0.index t (2 : Fin 3) = win1_4.index t (1 : Fin 4)
    ∧ win1_1.index t (0 : Fin 3) = win1_4.index t (0 : Fin 4) ∧ win1_1.index t (1 : Fin 3) = 0
    ∧ win1_1.index t (2 : Fin 3) = 8 + win1_4.index t (1 : Fin 4)
    ∧ win1_2.index t (0 : Fin 3) = win1_4.index t (0 : Fin 4) ∧ win1_2.index t (1 : Fin 3) = 0
    ∧ win1_2.index t (2 : Fin 3) = 16 + win1_4.index t (1 : Fin 4)
    ∧ win1_3.index t (0 : Fin 3) = win1_4.index t (0 : Fin 4) ∧ win1_3.index t (1 : Fin 3) = 0
    ∧ win1_3.index t (2 : Fin 3) = win1_4.index t (1 : Fin 4)
    ∧ win1_4.index t (2 : Fin 4) = 0 ∧ win1_4.index t (3 : Fin 4) = 0
    ∧ win1_4.index t (0 : Fin 4) ≤ 7 ∧ win1_4.index t (1 : Fin 4) ≤ 7 :=
  (by decide +kernel : ∀ t : Fin grid1.N, _)

/-- Every batch and head pair is some point's. -/
theorem idx_onto1 : ∀ (q0 : Fin 8) (q1 : Fin 8), ∃ t : Fin cfg1.N,
    win1_4.index t (0 : Fin 4) = q0.val ∧ win1_4.index t (1 : Fin 4) = q1.val :=
  (by decide +kernel : ∀ (q0 : Fin 8) (q1 : Fin 8), ∃ t : Fin grid1.N,
    win1_4.index t (0 : Fin 4) = q0.val ∧ win1_4.index t (1 : Fin 4) = q1.val)

/-- The query window's block at point `t`, read at a block index, is the array at the block's offset plus that index. -/
theorem iblk1_0_apply (c : Dev nD) (t : Fin cfg1.N) (y : S1x1024x128.Idx) (i : S8x1024x3072.Idx)
    (h0 : (i 0).val = win1_0.index t (0 : Fin 3) * 1 + (y 0).val)
    (h1 : (i 1).val = win1_0.index t (1 : Fin 3) * 1024 + (y 1).val)
    (h2 : (i 2).val = win1_0.index t (2 : Fin 3) * 128 + (y 2).val) :
    (iblk1 V c 0 t : S1x1024x128.Idx → EReal) y = (V c main_v4 : S8x1024x3072.Idx → EReal) i := by
  unfold iblk1
  rw [View.read_apply]
  show (V c main_v4 : S8x1024x3072.Idx → EReal) _ = V c main_v4 i
  refine congrArg _ ?_
  funext a
  apply Fin.ext
  match a with
  | ⟨0, _⟩ => show win1_0.index t (0 : Fin 3) * 1 + 1 * (y 0).val = (i 0).val; omega
  | ⟨1, _⟩ => show win1_0.index t (1 : Fin 3) * 1024 + 1 * (y 1).val = (i 1).val; omega
  | ⟨2, _⟩ => show win1_0.index t (2 : Fin 3) * 128 + 1 * (y 2).val = (i 2).val; omega

/-- The key window's block, likewise. -/
theorem iblk1_1_apply (c : Dev nD) (t : Fin cfg1.N) (y : S1x1024x128.Idx) (i : S8x1024x3072.Idx)
    (h0 : (i 0).val = win1_1.index t (0 : Fin 3) * 1 + (y 0).val)
    (h1 : (i 1).val = win1_1.index t (1 : Fin 3) * 1024 + (y 1).val)
    (h2 : (i 2).val = win1_1.index t (2 : Fin 3) * 128 + (y 2).val) :
    (iblk1 V c 1 t : S1x1024x128.Idx → EReal) y = (V c main_v4 : S8x1024x3072.Idx → EReal) i := by
  unfold iblk1
  rw [View.read_apply]
  show (V c main_v4 : S8x1024x3072.Idx → EReal) _ = V c main_v4 i
  refine congrArg _ ?_
  funext a
  apply Fin.ext
  match a with
  | ⟨0, _⟩ => show win1_1.index t (0 : Fin 3) * 1 + 1 * (y 0).val = (i 0).val; omega
  | ⟨1, _⟩ => show win1_1.index t (1 : Fin 3) * 1024 + 1 * (y 1).val = (i 1).val; omega
  | ⟨2, _⟩ => show win1_1.index t (2 : Fin 3) * 128 + 1 * (y 2).val = (i 2).val; omega

/-- The value window's block, likewise. -/
theorem iblk1_2_apply (c : Dev nD) (t : Fin cfg1.N) (y : S1x1024x128.Idx) (i : S8x1024x3072.Idx)
    (h0 : (i 0).val = win1_2.index t (0 : Fin 3) * 1 + (y 0).val)
    (h1 : (i 1).val = win1_2.index t (1 : Fin 3) * 1024 + (y 1).val)
    (h2 : (i 2).val = win1_2.index t (2 : Fin 3) * 128 + (y 2).val) :
    (iblk1 V c 2 t : S1x1024x128.Idx → EReal) y = (V c main_v4 : S8x1024x3072.Idx → EReal) i := by
  unfold iblk1
  rw [View.read_apply]
  show (V c main_v4 : S8x1024x3072.Idx → EReal) _ = V c main_v4 i
  refine congrArg _ ?_
  funext a
  apply Fin.ext
  match a with
  | ⟨0, _⟩ => show win1_2.index t (0 : Fin 3) * 1 + 1 * (y 0).val = (i 0).val; omega
  | ⟨1, _⟩ => show win1_2.index t (1 : Fin 3) * 1024 + 1 * (y 1).val = (i 1).val; omega
  | ⟨2, _⟩ => show win1_2.index t (2 : Fin 3) * 128 + 1 * (y 2).val = (i 2).val; omega

/-! ## The heads' scores off the projected rows -/

/-- The low halves of the query and key blocks give the scores of head 2hp of batch b. -/
theorem scores_lo (c : Dev nD) (t : Fin cfg1.N) (b : Fin 8) (hp : Fin 8) (h : Fin 16)
    (hb : win1_4.index t (0 : Fin 4) = b.val) (hhp : win1_4.index t (1 : Fin 4) = hp.val) (hh : h.val = 2 * hp.val)
    (r : Fin 1024) :
    scoresOf (View.ld (iblk1 V c 0 t) r1_lo) (View.ld (iblk1 V c 1 t) r1_lo) r
      = Cert.KSpec.hscore (V c main_v4) b h r := by
  obtain ⟨a0, a1, a2, b0, b1, b2, -⟩ := idx_facts1 t
  funext k
  refine congrArg (fun x : EReal => x * Cert.Spec.scale) (Finset.sum_congr rfl fun d _ => ?_)
  have c0 := colOf0_val h d
  have c1 := colOf1_val h d
  refine congrArg₂ (fun x y : EReal => x * y)
    ((ld_lo _ r d).trans (iblk1_0_apply V c t _ (ix3 b r (Cert.Spec.colOf 0 h d)) ?_ ?_ ?_))
    ((ld_lo _ k d).trans (iblk1_1_apply V c t _ (ix3 b k (Cert.Spec.colOf 1 h d)) ?_ ?_ ?_))
  · show b.val = win1_0.index t (0 : Fin 3) * 1 + 0; omega
  · show r.val = win1_0.index t (1 : Fin 3) * 1024 + r.val; omega
  · show (Cert.Spec.colOf 0 h d).val = win1_0.index t (2 : Fin 3) * 128 + d.val; omega
  · show b.val = win1_1.index t (0 : Fin 3) * 1 + 0; omega
  · show k.val = win1_1.index t (1 : Fin 3) * 1024 + k.val; omega
  · show (Cert.Spec.colOf 1 h d).val = win1_1.index t (2 : Fin 3) * 128 + d.val; omega

/-- The high halves of the query and key blocks give the scores of head 2hp + 1 of batch b. -/
theorem scores_hi (c : Dev nD) (t : Fin cfg1.N) (b : Fin 8) (hp : Fin 8) (h : Fin 16)
    (hb : win1_4.index t (0 : Fin 4) = b.val) (hhp : win1_4.index t (1 : Fin 4) = hp.val) (hh : h.val = 2 * hp.val + 1)
    (r : Fin 1024) :
    scoresOf (View.ld (iblk1 V c 0 t) r1_hi) (View.ld (iblk1 V c 1 t) r1_hi) r
      = Cert.KSpec.hscore (V c main_v4) b h r := by
  obtain ⟨a0, a1, a2, b0, b1, b2, -⟩ := idx_facts1 t
  funext k
  refine congrArg (fun x : EReal => x * Cert.Spec.scale) (Finset.sum_congr rfl fun d _ => ?_)
  have c0 := colOf0_val h d
  have c1 := colOf1_val h d
  refine congrArg₂ (fun x y : EReal => x * y)
    ((ld_hi _ r d).trans (iblk1_0_apply V c t _ (ix3 b r (Cert.Spec.colOf 0 h d)) ?_ ?_ ?_))
    ((ld_hi _ k d).trans (iblk1_1_apply V c t _ (ix3 b k (Cert.Spec.colOf 1 h d)) ?_ ?_ ?_))
  · show b.val = win1_0.index t (0 : Fin 3) * 1 + 0; omega
  · show r.val = win1_0.index t (1 : Fin 3) * 1024 + r.val; omega
  · show (Cert.Spec.colOf 0 h d).val = win1_0.index t (2 : Fin 3) * 128 + (64 + d.val); omega
  · show b.val = win1_1.index t (0 : Fin 3) * 1 + 0; omega
  · show k.val = win1_1.index t (1 : Fin 3) * 1024 + k.val; omega
  · show (Cert.Spec.colOf 1 h d).val = win1_1.index t (2 : Fin 3) * 128 + (64 + d.val); omega

/-! ## The attention weights -/

/-- The weights at an index whose coordinates are b, h, q, k. -/
theorem attw_apply_of (p : Cert.KSpec.ArrP) (i : (⟨4, ![8, 16, 1024, 1024]⟩ : Shape).Idx)
    (b : Fin 8) (h : Fin 16) (q k : Fin 1024)
    (hb : (i 0).val = b.val) (hh : (i 1).val = h.val) (hq : (i 2).val = q.val) (hk : (i 3).val = k.val) :
    Cert.KSpec.attw p i = Cert.Spec.softmax (Cert.KSpec.hscore p b h q) k := by
  have e0 : (i 0 : Fin 8) = b := Fin.ext hb
  have e1 : (i 1 : Fin 16) = h := Fin.ext hh
  have e2 : (i 2 : Fin 1024) = q := Fin.ext hq
  have e3 : (i 3 : Fin 1024) = k := Fin.ext hk
  show Cert.Spec.softmax (Cert.KSpec.hscore p (i 0) (i 1) (i 2)) (i 3) = _
  rw [e0, e1, e2, e3]

/-- What point `t` writes back to the weights is block `t` of the softmax of the heads' scores. -/
theorem flushed1_4_eq (c : Dev nD) (t : Fin cfg1.N) :
    (dat1 (F := Ideal) V c).flushed 4 t
      = ((cfg1.win 4).blk t).view.read (Elt Ideal) (Cert.KSpec.attw (V c main_v4)) := by
  show (cfg1.win 4).cut (grid1.coords t) ((dat1 V c).after 4 t) = _
  rw [after1_4]
  unfold out1_4
  rw [View.canon_unit_zero hz1_4]
  obtain ⟨-, -, -, -, -, -, -, -, -, -, -, -, f2, f3, f0, f1⟩ := idx_facts1 t
  funext j
  have h0 : (j 0).val < 1 := (j 0).isLt
  have h1 : (j 1).val < 2 := (j 1).isLt
  have h2 : (j 2).val < 1024 := (j 2).isLt
  have h3 : (j 3).val < 1024 := (j 3).isLt
  have hx : (cfg1.win 4).xinj (grid1.coords t) j
      = ix4 (⟨(j 0).val, h0⟩ : Fin 1) (⟨(j 1).val, h1⟩ : Fin 2) (⟨(j 2).val, h2⟩ : Fin 1024) (⟨(j 3).val, h3⟩ : Fin 1024) :=
    funext fun a => by
      match a with
      | ⟨0, _⟩ => rfl
      | ⟨1, _⟩ => rfl
      | ⟨2, _⟩ => rfl
      | ⟨3, _⟩ => rfl
  refine (congrArg (k1_pay2 (F := Ideal)
    (k1_pay4 (View.ld (iblk1 V c 0 t) r1_lo) (View.ld (iblk1 V c 1 t) r1_lo))
    (k1_pay7 (View.ld (iblk1 V c 0 t) r1_hi) (View.ld (iblk1 V c 1 t) r1_hi))
    (k1_pay8 (View.ld (iblk1 V c 0 t) r1_hi) (View.ld (iblk1 V c 1 t) r1_hi))) hx).trans ?_
  refine (k1_pay2_apply _ _ _ _ _ _ _ _).trans ?_
  have hB : win1_4.index t (0 : Fin 4) < 8 := by omega
  have hHP : win1_4.index t (1 : Fin 4) < 8 := by omega
  have hH : win1_4.index t (1 : Fin 4) * 2 + (j 1).val < 16 := by omega
  refine Eq.trans ?_ (attw_apply_of (V c main_v4) (((cfg1.win 4).blk t).view.emb j)
    ⟨win1_4.index t (0 : Fin 4), hB⟩ ⟨win1_4.index t (1 : Fin 4) * 2 + (j 1).val, hH⟩ ⟨(j 2).val, h2⟩ ⟨(j 3).val, h3⟩
    ?_ ?_ ?_ ?_).symm
  · by_cases hj : (j 1).val = 0
    · refine (if_pos (show (⟨(j 1).val, h1⟩ : Fin 2).val = 0 from hj)).trans ?_
      exact congrArg (fun s => Cert.Spec.softmax s (⟨(j 3).val, h3⟩ : Fin 1024))
        (scores_lo V c t ⟨win1_4.index t (0 : Fin 4), hB⟩ ⟨win1_4.index t (1 : Fin 4), hHP⟩
          ⟨win1_4.index t (1 : Fin 4) * 2 + (j 1).val, hH⟩ rfl rfl
          (by show win1_4.index t (1 : Fin 4) * 2 + (j 1).val = 2 * win1_4.index t (1 : Fin 4); omega) ⟨(j 2).val, h2⟩)
    · refine (if_neg (show ¬ (⟨(j 1).val, h1⟩ : Fin 2).val = 0 from hj)).trans ?_
      exact congrArg (fun s => Cert.Spec.softmax s (⟨(j 3).val, h3⟩ : Fin 1024))
        (scores_hi V c t ⟨win1_4.index t (0 : Fin 4), hB⟩ ⟨win1_4.index t (1 : Fin 4), hHP⟩
          ⟨win1_4.index t (1 : Fin 4) * 2 + (j 1).val, hH⟩ rfl rfl
          (by show win1_4.index t (1 : Fin 4) * 2 + (j 1).val = 2 * win1_4.index t (1 : Fin 4) + 1; omega) ⟨(j 2).val, h2⟩)
  · show win1_4.index t (0 : Fin 4) * 1 + 1 * (j 0).val = win1_4.index t (0 : Fin 4); omega
  · show win1_4.index t (1 : Fin 4) * 2 + 1 * (j 1).val = win1_4.index t (1 : Fin 4) * 2 + (j 1).val; omega
  · show win1_4.index t (2 : Fin 4) * 1024 + 1 * (j 2).val = (j 2).val; omega
  · show win1_4.index t (3 : Fin 4) * 1024 + 1 * (j 3).val = (j 3).val; omega

/-- An index of the weights is in point `t`'s block iff each coordinate is in the block's range on its axis. -/
theorem mem_blk1_4 (t : Fin cfg1.N) (i : S8x16x1024x1024.Idx) :
    i ∈ ((cfg1.win 4).blk t).view.set ↔ ∀ a : Fin 4, win1_4.index t a * S1x2x1024x1024.size a ≤ (i a).val
      ∧ (i a).val < win1_4.index t a * S1x2x1024x1024.size a + S1x2x1024x1024.size a := by
  show i ∈ ((View.whole main_v5_1).slice (win1_4.rect t)).set ↔ _
  rw [View.set_slice_whole, Rect.mem_set_unit]
  exact Iff.rfl

/-- Every index of the weights is in some point's block: batch b, head h in the block of point (b, h / 2). -/
theorem covered1_w (i : S8x16x1024x1024.Idx) :
    ∃ t : Fin cfg1.N, (cfg1.win 4).flush t = true ∧ i ∈ ((cfg1.win 4).blk t).view.set := by
  have hi0 : (i 0).val < 8 := (i 0).isLt
  have hi1 : (i 1).val < 16 := (i 1).isLt
  have hi2 : (i 2).val < 1024 := (i 2).isLt
  have hi3 : (i 3).val < 1024 := (i 3).isLt
  obtain ⟨t, q0, q1⟩ := idx_onto1 ⟨(i 0).val, hi0⟩ ⟨(i 1).val / 2, by omega⟩
  have q0' : win1_4.index t (0 : Fin 4) = (i 0).val := q0
  have q1' : win1_4.index t (1 : Fin 4) = (i 1).val / 2 := q1
  obtain ⟨-, -, -, -, -, -, -, -, -, -, -, -, f2, f3, -, -⟩ := idx_facts1 t
  refine ⟨t, flush1_4 t, ?_⟩
  rw [mem_blk1_4]
  intro a
  match a with
  | ⟨0, _⟩ =>
    show win1_4.index t (0 : Fin 4) * 1 ≤ (i 0).val ∧ (i 0).val < win1_4.index t (0 : Fin 4) * 1 + 1
    omega
  | ⟨1, _⟩ =>
    show win1_4.index t (1 : Fin 4) * 2 ≤ (i 1).val ∧ (i 1).val < win1_4.index t (1 : Fin 4) * 2 + 2
    omega
  | ⟨2, _⟩ =>
    show win1_4.index t (2 : Fin 4) * 1024 ≤ (i 2).val ∧ (i 2).val < win1_4.index t (2 : Fin 4) * 1024 + 1024
    omega
  | ⟨3, _⟩ =>
    show win1_4.index t (3 : Fin 4) * 1024 ≤ (i 3).val ∧ (i 3).val < win1_4.index t (3 : Fin 4) * 1024 + 1024
    omega

/-- The weights array after the region: the softmax of every head's scaled scores off the projected rows. -/
theorem final1_w (c : Dev nD) :
    (dat1 (F := Ideal) V c).arrAt 4 cfg1.N = Cert.KSpec.attw (V c main_v4) :=
  (dat1 V c).arrAt_eq_of_cover 4 (Cert.KSpec.attw (V c main_v4)) (fun t _ => flushed1_4_eq V c t) covered1_w

/-! ## The contexts -/

/-- The contexts at an index whose coordinates are b, q and the column col. -/
theorem ctx_apply_of (p : Cert.KSpec.ArrP) (i : (⟨3, ![8, 1024, 1024]⟩ : Shape).Idx) (b : Fin 8) (q col : Fin 1024)
    (hb : (i 0).val = b.val) (hq : (i 1).val = q.val) (hc : (i 2).val = col.val) :
    Cert.KSpec.ctx p i
      = ∑ k : Fin 1024, Cert.Spec.softmax (Cert.KSpec.hscore p b (Cert.Spec.headOf col) q) k
          * p (ix3 b k (Cert.Spec.colOf 2 (Cert.Spec.headOf col) (Cert.Spec.coordOf col))) := by
  have e0 : (i 0 : Fin 8) = b := Fin.ext hb
  have e1 : (i 1 : Fin 1024) = q := Fin.ext hq
  have e2 : (i 2 : Fin 1024) = col := Fin.ext hc
  show ∑ k : Fin 1024, Cert.Spec.softmax (Cert.KSpec.hscore p (i 0) (Cert.Spec.headOf (i 2)) (i 1)) k
      * p (ix3 (i 0) k (Cert.Spec.colOf 2 (Cert.Spec.headOf (i 2)) (Cert.Spec.coordOf (i 2)))) = _
  rw [e0, e1, e2]

/-- What point `t` writes back to the contexts is block `t` of the weighted sums of the value rows. -/
theorem flushed1_3_eq (c : Dev nD) (t : Fin cfg1.N) :
    (dat1 (F := Ideal) V c).flushed 3 t
      = ((cfg1.win 3).blk t).view.read (Elt Ideal) (Cert.KSpec.ctx (V c main_v4)) := by
  show (cfg1.win 3).cut (grid1.coords t) ((dat1 V c).after 3 t) = _
  rw [after1_3]
  unfold out1_3
  rw [View.canon_unit_zero hz1_3]
  obtain ⟨-, -, -, -, -, -, v0, v1, v2, o0, o1, o2, -, -, f0, f1⟩ := idx_facts1 t
  funext j
  have h0 : (j 0).val < 1 := (j 0).isLt
  have h1 : (j 1).val < 1024 := (j 1).isLt
  have h2 : (j 2).val < 128 := (j 2).isLt
  have hx : (cfg1.win 3).xinj (grid1.coords t) j
      = ix3 (⟨(j 0).val, h0⟩ : Fin 1) (⟨(j 1).val, h1⟩ : Fin 1024) (⟨(j 2).val, h2⟩ : Fin 128) :=
    funext fun a => by
      match a with
      | ⟨0, _⟩ => rfl
      | ⟨1, _⟩ => rfl
      | ⟨2, _⟩ => rfl
  refine (congrArg (k1_pay3 (F := Ideal)
    (k1_pay5 (View.ld (iblk1 V c 0 t) r1_lo) (View.ld (iblk1 V c 1 t) r1_lo) (View.ld (iblk1 V c 2 t) r1_lo))
    (k1_pay6 (View.ld (iblk1 V c 2 t) r1_hi))
    (k1_pay7 (View.ld (iblk1 V c 0 t) r1_hi) (View.ld (iblk1 V c 1 t) r1_hi))
    (k1_pay8 (View.ld (iblk1 V c 0 t) r1_hi) (View.ld (iblk1 V c 1 t) r1_hi))) hx).trans ?_
  refine (k1_pay3_apply _ _ _ _ _ _ _ _ _).trans ?_
  have hB : win1_4.index t (0 : Fin 4) < 8 := by omega
  have hHP : win1_4.index t (1 : Fin 4) < 8 := by omega
  have hC : win1_4.index t (1 : Fin 4) * 128 + (j 2).val < 1024 := by omega
  refine Eq.trans ?_ (ctx_apply_of (V c main_v4) (((cfg1.win 3).blk t).view.emb j)
    ⟨win1_4.index t (0 : Fin 4), hB⟩ ⟨(j 1).val, h1⟩ ⟨win1_4.index t (1 : Fin 4) * 128 + (j 2).val, hC⟩ ?_ ?_ ?_).symm
  · by_cases hj : (j 2).val < 64
    · refine (dif_pos (show (⟨(j 2).val, h2⟩ : Fin 128).val < 64 from hj)).trans ?_
      have hs := scores_lo V c t ⟨win1_4.index t (0 : Fin 4), hB⟩ ⟨win1_4.index t (1 : Fin 4), hHP⟩
        (Cert.Spec.headOf ⟨win1_4.index t (1 : Fin 4) * 128 + (j 2).val, hC⟩) rfl rfl
        (by show (win1_4.index t (1 : Fin 4) * 128 + (j 2).val) / 64 = 2 * win1_4.index t (1 : Fin 4); omega)
        ⟨(j 1).val, h1⟩
      refine Finset.sum_congr rfl fun k _ => ?_
      refine congrArg₂ (fun x y : EReal => x * y) (congrFun (congrArg Cert.Spec.softmax hs) k) ?_
      refine (ld_lo _ k _).trans (iblk1_2_apply V c t _
        (ix3 (⟨win1_4.index t (0 : Fin 4), hB⟩ : Fin 8) k
          (Cert.Spec.colOf 2 (Cert.Spec.headOf ⟨win1_4.index t (1 : Fin 4) * 128 + (j 2).val, hC⟩)
            (Cert.Spec.coordOf ⟨win1_4.index t (1 : Fin 4) * 128 + (j 2).val, hC⟩))) ?_ ?_ ?_)
      · show win1_4.index t (0 : Fin 4) = win1_2.index t (0 : Fin 3) * 1 + 0; omega
      · show k.val = win1_2.index t (1 : Fin 3) * 1024 + k.val; omega
      · rw [colOf2_val]
        show 2048 + (win1_4.index t (1 : Fin 4) * 128 + (j 2).val) / 64 * 64
            + (win1_4.index t (1 : Fin 4) * 128 + (j 2).val) % 64
          = win1_2.index t (2 : Fin 3) * 128 + (j 2).val
        omega
    · refine (dif_neg (show ¬ (⟨(j 2).val, h2⟩ : Fin 128).val < 64 from hj)).trans ?_
      have hs := scores_hi V c t ⟨win1_4.index t (0 : Fin 4), hB⟩ ⟨win1_4.index t (1 : Fin 4), hHP⟩
        (Cert.Spec.headOf ⟨win1_4.index t (1 : Fin 4) * 128 + (j 2).val, hC⟩) rfl rfl
        (by show (win1_4.index t (1 : Fin 4) * 128 + (j 2).val) / 64 = 2 * win1_4.index t (1 : Fin 4) + 1; omega)
        ⟨(j 1).val, h1⟩
      refine Finset.sum_congr rfl fun k _ => ?_
      refine congrArg₂ (fun x y : EReal => x * y) (congrFun (congrArg Cert.Spec.softmax hs) k) ?_
      refine (ld_hi _ k _).trans (iblk1_2_apply V c t _
        (ix3 (⟨win1_4.index t (0 : Fin 4), hB⟩ : Fin 8) k
          (Cert.Spec.colOf 2 (Cert.Spec.headOf ⟨win1_4.index t (1 : Fin 4) * 128 + (j 2).val, hC⟩)
            (Cert.Spec.coordOf ⟨win1_4.index t (1 : Fin 4) * 128 + (j 2).val, hC⟩))) ?_ ?_ ?_)
      · show win1_4.index t (0 : Fin 4) = win1_2.index t (0 : Fin 3) * 1 + 0; omega
      · show k.val = win1_2.index t (1 : Fin 3) * 1024 + k.val; omega
      · rw [colOf2_val]
        show 2048 + (win1_4.index t (1 : Fin 4) * 128 + (j 2).val) / 64 * 64
            + (win1_4.index t (1 : Fin 4) * 128 + (j 2).val) % 64
          = win1_2.index t (2 : Fin 3) * 128 + (64 + ((j 2).val - 64))
        omega
  · show win1_3.index t (0 : Fin 3) * 1 + 1 * (j 0).val = win1_4.index t (0 : Fin 4); omega
  · show win1_3.index t (1 : Fin 3) * 1024 + 1 * (j 1).val = (j 1).val; omega
  · show win1_3.index t (2 : Fin 3) * 128 + 1 * (j 2).val = win1_4.index t (1 : Fin 4) * 128 + (j 2).val; omega

/-- An index of the contexts is in point `t`'s block iff each coordinate is in the block's range on its axis. -/
theorem mem_blk1_3 (t : Fin cfg1.N) (i : S8x1024x1024.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v5_0).slice (win1_3.rect t)).set ↔ _
  rw [View.set_slice_whole, Rect.mem_set_unit]
  exact Iff.rfl

/-- Every index of the contexts is in some point's block: batch b, column cc in the block of point (b, cc / 128). -/
theorem covered1_o (i : S8x1024x1024.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 1024 := (i 2).isLt
  obtain ⟨t, q0, q1⟩ := idx_onto1 ⟨(i 0).val, hi0⟩ ⟨(i 2).val / 128, by omega⟩
  have q0' : win1_4.index t (0 : Fin 4) = (i 0).val := q0
  have q1' : win1_4.index t (1 : Fin 4) = (i 2).val / 128 := q1
  obtain ⟨-, -, -, -, -, -, -, -, -, o0, o1, o2, -⟩ := idx_facts1 t
  refine ⟨t, flush1_3 t, ?_⟩
  rw [mem_blk1_3]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 128 ≤ (i 2).val ∧ (i 2).val < win1_3.index t (2 : Fin 3) * 128 + 128
    omega

/-- The contexts array after the region: every head's weighted sums of its value rows, 16 heads side by side. -/
theorem final1_o (c : Dev nD) :
    (dat1 (F := Ideal) V c).arrAt 3 cfg1.N = Cert.KSpec.ctx (V c main_v4) :=
  (dat1 V c).arrAt_eq_of_cover 3 (Cert.KSpec.ctx (V c main_v4)) (fun t _ => flushed1_3_eq V c t) covered1_o

end Cert.KernelIdeal.HandValue

end
-- ==== Proof.IValue2.lean ====
/-
  The last linear projection's output array after its region, entry by entry, over the extended reals.

  The grid's points write back the 1024 × 1024 blocks of the [8192, 1024] output; the block at block row i1 (and the
  one block column) is the product of block row i1 of the contexts with the whole weight array, contracted over all
  1024 input columns. The blocks tile the output, so the array ends as X·Wᵀ.
-/
import proofs.«106777_j17008070492194_2_alg».proof.Proof.IRegion2
import proofs.«106777_j17008070492194_2_alg».proof.Proof.PayLinear
import proofs.«106777_j17008070492194_2_alg».proof.Proof.KSpec
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The whole output as one function of the two operand arrays: X·Wᵀ. -/
abbrev G2 (a : S8192x1024.Idx → EReal) (w : S1024x1024.Idx → EReal) : S8192x1024.Idx → EReal :=
  Cert.KSpec.lin (M := 8192) (N := 1024) a w

/-- The index maps over the grid: the contexts' block row is the output's, the weights' block row is the output's
    block column, both operands' block column is 0, and the output's block indices stay in range. -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7
    ∧ win2_2.index t (1 : Fin 2) ≤ 0 :=
  (by decide +kernel : ∀ t : Fin grid2.N, _)

/-- Every block of the output is some point's. -/
theorem idx_onto2 : ∀ (q0 : Fin 8) (q1 : Fin 1), ∃ t : Fin cfg2.N, win2_2.index t = ![q0.val, q1.val] :=
  (by decide +kernel : ∀ (q0 : Fin 8) (q1 : Fin 1), ∃ t : Fin grid2.N, win2_2.index t = ![q0.val, q1.val])

/-- X·Wᵀ at an index whose coordinates are `p` and `n`. -/
theorem lin_apply_of2 {M N : ℕ} (a : (⟨2, ![M, 1024]⟩ : Shape).Idx → EReal) (w : (⟨2, ![N, 1024]⟩ : Shape).Idx → EReal)
    (i : (⟨2, ![M, N]⟩ : Shape).Idx) (p : Fin M) (n : Fin N) (hp : (i 0).val = p.val) (hn : (i 1).val = n.val) :
    Cert.KSpec.lin a w i = ∑ k : Fin 1024, a (ix2 p k) * w (ix2 n k) := by
  have e0 : (i 0 : Fin M) = p := Fin.ext hp
  have e1 : (i 1 : Fin N) = n := Fin.ext hn
  show ∑ k : Fin 1024, a (ix2 (i 0) k) * w (ix2 (i 1) k) = _
  rw [e0, e1]

/-- The contexts' block at point `t`, read at a block index, is the array at the block's offset plus that index. -/
theorem iblk2_0_apply (c : Dev nD) (t : Fin cfg2.N) (y : S1024x1024.Idx) (i : S8192x1024.Idx)
    (h0 : (i 0).val = win2_0.index t (0 : Fin 2) * 1024 + (y 0).val)
    (h1 : (i 1).val = win2_0.index t (1 : Fin 2) * 1024 + (y 1).val) :
    (iblk2 V c 0 t : S1024x1024.Idx → EReal) y = (V c main_v6 : S8192x1024.Idx → EReal) i := by
  unfold iblk2
  rw [View.read_apply]
  show (V c main_v6 : S8192x1024.Idx → EReal) _ = V c main_v6 i
  refine congrArg _ ?_
  funext a
  apply Fin.ext
  match a with
  | ⟨0, _⟩ => show win2_0.index t (0 : Fin 2) * 1024 + 1 * (y 0).val = (i 0).val; omega
  | ⟨1, _⟩ => show win2_0.index t (1 : Fin 2) * 1024 + 1 * (y 1).val = (i 1).val; omega

/-- The weights' block at point `t`, read at a block index, is the array at the block's offset plus that index. -/
theorem iblk2_1_apply (c : Dev nD) (t : Fin cfg2.N) (y : S1024x1024.Idx) (i : S1024x1024.Idx)
    (h0 : (i 0).val = win2_1.index t (0 : Fin 2) * 1024 + (y 0).val)
    (h1 : (i 1).val = win2_1.index t (1 : Fin 2) * 1024 + (y 1).val) :
    (iblk2 V c 1 t : S1024x1024.Idx → EReal) y = (V c main_v1 : S1024x1024.Idx → EReal) i := by
  unfold iblk2
  rw [View.read_apply]
  show (V c main_v1 : S1024x1024.Idx → EReal) _ = V c main_v1 i
  refine congrArg _ ?_
  funext a
  apply Fin.ext
  match a with
  | ⟨0, _⟩ => show win2_1.index t (0 : Fin 2) * 1024 + 1 * (y 0).val = (i 0).val; omega
  | ⟨1, _⟩ => show win2_1.index t (1 : Fin 2) * 1024 + 1 * (y 1).val = (i 1).val; omega

/-- What point `t` writes back is block `t` of X·Wᵀ of the operand arrays as the region finds them. -/
theorem flushed2_eq (c : Dev nD) (t : Fin cfg2.N) :
    (dat2 (F := Ideal) V c).flushed 2 t
      = ((cfg2.win 2).blk t).view.read (Elt Ideal) (G2 (V c main_v6) (V c main_v1)) := by
  show (cfg2.win 2).cut (grid2.coords t) ((dat2 V c).after 2 t) = _
  rw [after2_2]
  unfold out2_2
  rw [View.canon_unit_zero hz2]
  simp only [View.ld_unit_zero (S := S1024x1024) hz2]
  obtain ⟨e0, e1, e2, e3, e4, e5⟩ := idx_facts2 t
  funext j
  have hp : (j 0).val < 1024 := (j 0).isLt
  have hn : (j 1).val < 1024 := (j 1).isLt
  have hx : (cfg2.win 2).xinj (grid2.coords t) j = ix2 (⟨(j 0).val, hp⟩ : Fin 1024) (⟨(j 1).val, hn⟩ : Fin 1024) :=
    funext fun a => by
      match a with
      | ⟨0, _⟩ => rfl
      | ⟨1, _⟩ => rfl
  refine (congrArg (k2_pay1 (F := Ideal) (iblk2 V c 0 t) (iblk2 V c 1 t)) hx).trans ?_
  refine (k2_pay1_apply _ _ _ _).trans ?_
  have hP : win2_2.index t (0 : Fin 2) * 1024 + (j 0).val < 8192 := by omega
  have hN : win2_2.index t (1 : Fin 2) * 1024 + (j 1).val < 1024 := by omega
  refine (Finset.sum_congr rfl fun k _ => ?_).trans
    (lin_apply_of2 (M := 8192) (N := 1024) (V c main_v6) (V c main_v1) (((cfg2.win 2).blk t).view.emb j)
      ⟨win2_2.index t (0 : Fin 2) * 1024 + (j 0).val, hP⟩ ⟨win2_2.index t (1 : Fin 2) * 1024 + (j 1).val, hN⟩
      (by show win2_2.index t (0 : Fin 2) * 1024 + 1 * (j 0).val = win2_2.index t (0 : Fin 2) * 1024 + (j 0).val; omega)
      (by show win2_2.index t (1 : Fin 2) * 1024 + 1 * (j 1).val = win2_2.index t (1 : Fin 2) * 1024 + (j 1).val; omega)).symm
  refine congrArg₂ (· * ·)
    (iblk2_0_apply V c t (ix2 (⟨(j 0).val, hp⟩ : Fin 1024) k) (ix2 ⟨win2_2.index t (0 : Fin 2) * 1024 + (j 0).val, hP⟩ k) ?_ ?_)
    (iblk2_1_apply V c t (ix2 (⟨(j 1).val, hn⟩ : Fin 1024) k) (ix2 ⟨win2_2.index t (1 : Fin 2) * 1024 + (j 1).val, hN⟩ k) ?_ ?_)
  · show win2_2.index t (0 : Fin 2) * 1024 + (j 0).val = win2_0.index t (0 : Fin 2) * 1024 + (j 0).val; omega
  · show k.val = win2_0.index t (1 : Fin 2) * 1024 + k.val; omega
  · show win2_2.index t (1 : Fin 2) * 1024 + (j 1).val = win2_1.index t (0 : Fin 2) * 1024 + (j 1).val; omega
  · show k.val = win2_1.index t (1 : Fin 2) * 1024 + k.val; omega

/-- An index of the output is in point `t`'s block iff each coordinate is in the block's range on its axis. -/
theorem mem_blk2 (t : Fin cfg2.N) (i : S8192x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v7).slice (win2_2.rect t)).set ↔ _
  rw [View.set_slice_whole, Rect.mem_set_unit]
  exact Iff.rfl

/-- Every index of the output is in some point's block. -/
theorem cover2 (i : S8192x1024.Idx) :
    ∃ t : Fin cfg2.N, (cfg2.win 2).flush t = true ∧ i ∈ ((cfg2.win 2).blk t).view.set := by
  have hi0 : (i 0).val < 8192 := (i 0).isLt
  have hi1 : (i 1).val < 1024 := (i 1).isLt
  obtain ⟨t, ht⟩ := idx_onto2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 1024 ≤ (i 1).val ∧ (i 1).val < win2_2.index t (1 : Fin 2) * 1024 + 1024
    omega

/-- The output array after the region: X·Wᵀ of the operand arrays as the region finds them. -/
theorem final2 (c : Dev nD) :
    (dat2 (F := Ideal) V c).arrAt 2 cfg2.N
      = Cert.KSpec.lin (M := 8192) (N := 1024) (V c main_v6) (V c main_v1) :=
  (dat2 V c).arrAt_eq_of_cover 2 (G2 (V c main_v6) (V c main_v1)) (fun t _ => flushed2_eq V c t) (cover2)

end Cert.KernelIdeal.HandValue

end
-- ==== Proof.Compose.lean ====
/-
  The kernel program's composite is the attention layer (`Cert.Spec`).

  The program flattens the [8, 1024, 1024] input to 8192 rows, multiplies the rows by w_qkvᵀ, regroups the products
  as [8, 1024, 3072], runs the attention on them, flattens the contexts to 8192 rows, multiplies them by w_projᵀ and
  regroups the result. A reshape keeps each entry's row-major position: row b·1024 + t of a flattened array is
  token (b, t).
-/
import proofs.«106777_j17008070492194_2_alg».proof.Proof.KSpec
import Idealize.ShloMosaic.Lib.Pipeline.Value
import Idealize.ShloMosaic.Lib.ValueIdx

noncomputable section

open scoped BigOperators

namespace Cert.Compose

open Idealize.ShloMosaic Idealize.ShloMosaic.ValueIdx

/-- The row of token (b, t) in a flattened array. -/
def rowOf (b : Fin 8) (t : Fin 1024) : Fin 8192 :=
  ⟨b.val * 1024 + t.val, by have := b.isLt; have := t.isLt; omega⟩

/-! ## Reshapes at an index -/

/-- A [8, 1024, 1024] array flattened to [8192, 1024], at row b·1024 + t, is the array at (b, t). -/
theorem flat_at (A : (⟨3, ![8, 1024, 1024]⟩ : Shape).Idx → EReal)
    (h : (⟨3, ![8, 1024, 1024]⟩ : Shape).ShapeCasts ⟨2, ![8192, 1024]⟩) (b : Fin 8) (t : Fin 1024) (k : Fin 1024) :
    shapeCast ⟨2, ![8192, 1024]⟩ A h (ix2 (rowOf b t) k) = A (ix3 b t k) :=
  shapeCast_apply A h (ix2 (rowOf b t) k) (ix3 b t k) (by
    rewrite [Shape.rowMajor_val_three, Shape.rowMajor_val_two]
    show (b.val * 1024 + t.val) * 1024 + k.val = (b.val * 1024 + t.val) * 1024 + k.val
    rfl)

/-- A [8192, N] array regrouped as [8, 1024, N], at (b, t, e), is the array at row b·1024 + t, column e. -/
theorem unflat_at {N : ℕ} (B : (⟨2, ![8192, N]⟩ : Shape).Idx → EReal)
    (h : (⟨2, ![8192, N]⟩ : Shape).ShapeCasts ⟨3, ![8, 1024, N]⟩) (b : Fin 8) (t : Fin 1024) (e : Fin N) :
    shapeCast ⟨3, ![8, 1024, N]⟩ B h (ix3 b t e) = B (ix2 (rowOf b t) e) :=
  shapeCast_apply B h (ix3 b t e) (ix2 (rowOf b t) e) (by
    rewrite [Shape.rowMajor_val_three, Shape.rowMajor_val_two]
    show (b.val * 1024 + t.val) * N + e.val = (b.val * 1024 + t.val) * N + e.val
    rfl)

/-- Flatten, multiply by Wᵀ, regroup: at (b, t, e) the sum over k of the array at (b, t, k) times W at (e, k). -/
theorem lin_at {N : ℕ} (A : (⟨3, ![8, 1024, 1024]⟩ : Shape).Idx → EReal) (w : (⟨2, ![N, 1024]⟩ : Shape).Idx → EReal)
    (h : (⟨3, ![8, 1024, 1024]⟩ : Shape).ShapeCasts ⟨2, ![8192, 1024]⟩)
    (h' : (⟨2, ![8192, N]⟩ : Shape).ShapeCasts ⟨3, ![8, 1024, N]⟩) (b : Fin 8) (t : Fin 1024) (e : Fin N) :
    shapeCast ⟨3, ![8, 1024, N]⟩ (Cert.KSpec.lin (shapeCast ⟨2, ![8192, 1024]⟩ A h) w) h' (ix3 b t e)
      = ∑ k : Fin 1024, A (ix3 b t k) * w (ix2 e k) := by
  rw [unflat_at]
  unfold Cert.KSpec.lin
  show (∑ k : Fin 1024, shapeCast ⟨2, ![8192, 1024]⟩ A h (ix2 (rowOf b t) k) * w (ix2 e k)) = _
  refine Finset.sum_congr rfl fun k _ => ?_
  rw [flat_at]

/-! ## The attention on the projected rows -/

/-- On an array whose entry (b, t, e) is the projected row's column e, a head's row of scores is the layer's. -/
theorem hscore_of (x : Cert.Spec.ArrX) (wq : Cert.Spec.ArrWqkv) (p : Cert.KSpec.ArrP)
    (hp : ∀ (b : Fin 8) (t : Fin 1024) (e : Fin 3072), p (ix3 b t e) = Cert.Spec.qkv x wq b t e)
    (b : Fin 8) (h : Fin 16) (q : Fin 1024) :
    Cert.KSpec.hscore p b h q = Cert.Spec.score x wq b h q := by
  funext k
  show (∑ d : Fin 64, p (ix3 b q (Cert.Spec.colOf 0 h d)) * p (ix3 b k (Cert.Spec.colOf 1 h d))) * Cert.Spec.scale
    = (∑ d : Fin 64, Cert.Spec.qkv x wq b q (Cert.Spec.colOf 0 h d) * Cert.Spec.qkv x wq b k (Cert.Spec.colOf 1 h d))
      * Cert.Spec.scale
  refine congrArg (· * _) (Finset.sum_congr rfl fun d _ => ?_)
  rw [hp, hp]

/-- On such an array the attention weights are the layer's. -/
theorem attw_of (x : Cert.Spec.ArrX) (wq : Cert.Spec.ArrWqkv) (p : Cert.KSpec.ArrP)
    (hp : ∀ (b : Fin 8) (t : Fin 1024) (e : Fin 3072), p (ix3 b t e) = Cert.Spec.qkv x wq b t e) :
    Cert.KSpec.attw p = Cert.Spec.attw x wq := by
  funext i
  show Cert.Spec.softmax (Cert.KSpec.hscore p (i 0) (i 1) (i 2)) (i 3)
    = Cert.Spec.softmax (Cert.Spec.score x wq (i 0) (i 1) (i 2)) (i 3)
  exact congrArg (fun s => Cert.Spec.softmax s (i 3)) (hscore_of x wq p hp (i 0) (i 1) (i 2))

/-- On such an array the contexts at (b, t, c) are the layer's at column c's head and coordinate. -/
theorem ctx_of (x : Cert.Spec.ArrX) (wq : Cert.Spec.ArrWqkv) (p : Cert.KSpec.ArrP)
    (hp : ∀ (b : Fin 8) (t : Fin 1024) (e : Fin 3072), p (ix3 b t e) = Cert.Spec.qkv x wq b t e)
    (b : Fin 8) (t : Fin 1024) (c : Fin 1024) :
    Cert.KSpec.ctx p (ix3 b t c) = Cert.Spec.ctx x wq b t (Cert.Spec.headOf c) (Cert.Spec.coordOf c) := by
  show (∑ k : Fin 1024, Cert.Spec.softmax (Cert.KSpec.hscore p b (Cert.Spec.headOf c) t) k
      * p (ix3 b k (Cert.Spec.colOf 2 (Cert.Spec.headOf c) (Cert.Spec.coordOf c))))
    = ∑ k : Fin 1024, Cert.Spec.softmax (Cert.Spec.score x wq b (Cert.Spec.headOf c) t) k
      * Cert.Spec.qkv x wq b k (Cert.Spec.colOf 2 (Cert.Spec.headOf c) (Cert.Spec.coordOf c))
  rw [hscore_of x wq p hp]
  refine Finset.sum_congr rfl fun k _ => ?_
  rw [hp]

/-- On such an array: flatten the contexts, multiply by w_projᵀ, regroup — the layer's projected output. -/
theorem out_of (x : Cert.Spec.ArrX) (wq : Cert.Spec.ArrWqkv) (wp : Cert.Spec.ArrWproj) (p : Cert.KSpec.ArrP)
    (hp : ∀ (b : Fin 8) (t : Fin 1024) (e : Fin 3072), p (ix3 b t e) = Cert.Spec.qkv x wq b t e)
    (h3 : (⟨3, ![8, 1024, 1024]⟩ : Shape).ShapeCasts ⟨2, ![8192, 1024]⟩)
    (h4 : (⟨2, ![8192, 1024]⟩ : Shape).ShapeCasts ⟨3, ![8, 1024, 1024]⟩) :
    shapeCast ⟨3, ![8, 1024, 1024]⟩ (Cert.KSpec.lin (shapeCast ⟨2, ![8192, 1024]⟩ (Cert.KSpec.ctx p) h3) wp) h4
      = Cert.Spec.out x wq wp := by
  funext i
  refine (congrArg _ (eq_ix3 (n0 := 8) (n1 := 1024) (n2 := 1024) i)).trans
    ((lin_at (Cert.KSpec.ctx p) wp h3 h4 (i 0) (i 1) (i 2)).trans ?_)
  show (∑ c : Fin 1024, Cert.KSpec.ctx p (ix3 (i 0) (i 1) c) * wp (ix2 (i 2) c))
    = ∑ c : Fin 1024, Cert.Spec.ctx x wq (i 0) (i 1) (Cert.Spec.headOf c) (Cert.Spec.coordOf c) * wp (ix2 (i 2) c)
  refine Finset.sum_congr rfl fun c _ => ?_
  exact congrArg (· * _) (ctx_of x wq p hp (i 0) (i 1) c)

/-! ## The composite -/

/-- The regrouped products of the flattened input with w_qkvᵀ are the projected rows. -/
theorem proj_at (x : Cert.Spec.ArrX) (wq : Cert.Spec.ArrWqkv)
    (h1 : (⟨3, ![8, 1024, 1024]⟩ : Shape).ShapeCasts ⟨2, ![8192, 1024]⟩)
    (h2 : (⟨2, ![8192, 3072]⟩ : Shape).ShapeCasts ⟨3, ![8, 1024, 3072]⟩) (b : Fin 8) (t : Fin 1024) (e : Fin 3072) :
    shapeCast ⟨3, ![8, 1024, 3072]⟩ (Cert.KSpec.lin (shapeCast ⟨2, ![8192, 1024]⟩ x h1) wq) h2 (ix3 b t e)
      = Cert.Spec.qkv x wq b t e :=
  lin_at x wq h1 h2 b t e

/-- The kernel program's attention weights are the layer's. -/
theorem attw_eq (x : Cert.Spec.ArrX) (wq : Cert.Spec.ArrWqkv)
    (h1 : (⟨3, ![8, 1024, 1024]⟩ : Shape).ShapeCasts ⟨2, ![8192, 1024]⟩)
    (h2 : (⟨2, ![8192, 3072]⟩ : Shape).ShapeCasts ⟨3, ![8, 1024, 3072]⟩) :
    Cert.KSpec.attw (shapeCast ⟨3, ![8, 1024, 3072]⟩ (Cert.KSpec.lin (shapeCast ⟨2, ![8192, 1024]⟩ x h1) wq) h2)
      = Cert.Spec.attw x wq :=
  attw_of x wq _ (proj_at x wq h1 h2)

/-- The kernel program's output is the layer's. -/
theorem out_eq (x : Cert.Spec.ArrX) (wq : Cert.Spec.ArrWqkv) (wp : Cert.Spec.ArrWproj)
    (h1 : (⟨3, ![8, 1024, 1024]⟩ : Shape).ShapeCasts ⟨2, ![8192, 1024]⟩)
    (h2 : (⟨2, ![8192, 3072]⟩ : Shape).ShapeCasts ⟨3, ![8, 1024, 3072]⟩)
    (h3 : (⟨3, ![8, 1024, 1024]⟩ : Shape).ShapeCasts ⟨2, ![8192, 1024]⟩)
    (h4 : (⟨2, ![8192, 1024]⟩ : Shape).ShapeCasts ⟨3, ![8, 1024, 1024]⟩) :
    shapeCast ⟨3, ![8, 1024, 1024]⟩ (Cert.KSpec.lin (shapeCast ⟨2, ![8192, 1024]⟩
        (Cert.KSpec.ctx (shapeCast ⟨3, ![8, 1024, 3072]⟩ (Cert.KSpec.lin (shapeCast ⟨2, ![8192, 1024]⟩ x h1) wq) h2)) h3) wp) h4
      = Cert.Spec.out x wq wp :=
  out_of x wq wp _ (proj_at x wq h1 h2) h3 h4

end Cert.Compose

end
-- ==== Proof.IFinal.lean ====
/-
  What the kernel program returns, over the extended reals.

  Reading the contents at the last segment boundary back through the segments: the returned output is the reshape of
  the last projection of the reshaped contexts with the cast w_proj; the contexts and the returned attention weights
  are the attention kernel's two arrays of the reshaped projected rows; the projected rows are the first projection of
  the reshaped x with the cast w_qkv. Over the extended reals a cast is the identity, and the composite is the
  attention layer's two results. No segment writes an argument array.
-/
import proofs.«106777_j17008070492194_2_alg».proof.Proof.IRun
import proofs.«106777_j17008070492194_2_alg».proof.Proof.IValue0
import proofs.«106777_j17008070492194_2_alg».proof.Proof.IValue1
import proofs.«106777_j17008070492194_2_alg».proof.Proof.IValue2
import proofs.«106777_j17008070492194_2_alg».proof.Proof.Compose
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.StableHlo

variable (m : (ℓ : Loc nD τ sig) → Buf (Elt Ideal) ℓ) (ρ : Dev nD → PrngReg)

/-! ## The contents at each boundary, read back -/

/-- Over the extended reals a cast to a narrower float format is the identity. -/
theorem truncf_id {S : Shape} (x : FVec Ideal S .f32) : (truncf .bf16 x Gen.bitsLt_bf16_f32 : FVec Ideal S .bf16) = x := rfl

theorem V1_v2 (c : Dev nD) : V1 m ρ c main_v2 = shapeCast S8192x1024 (m ((c : Thread nD τ).loc main_arg0)) Gen.shapeCasts_S8x1024x1024_S8192x1024 := by
  dsimp only [Hand.V1, Hand.W1, hostOps0]; after_results; rfl
theorem V1_v0 (c : Dev nD) : V1 m ρ c main_v0 = m ((c : Thread nD τ).loc main_arg1) := by
  dsimp only [Hand.V1, Hand.W1, hostOps0]; after_results; rfl
theorem V1_v1 (c : Dev nD) : V1 m ρ c main_v1 = m ((c : Thread nD τ).loc main_arg2) := by
  dsimp only [Hand.V1, Hand.W1, hostOps0]; after_results; rfl

/-- The projected rows, as the first region leaves them. -/
theorem W2_v3 (c : Dev nD) : W2 m ρ c main_v3
    = Cert.KSpec.lin (M := 8192) (N := 3072) (shapeCast S8192x1024 (m ((c : Thread nD τ).loc main_arg0)) Gen.shapeCasts_S8x1024x1024_S8192x1024) (m ((c : Thread nD τ).loc main_arg1)) :=
  ((W2_arr m ρ c 2).trans (final0 (V1 m ρ) c)).trans (by rw [V1_v2, V1_v0])

theorem V3_v4 (c : Dev nD) : V3 m ρ c main_v4 = shapeCast S8x1024x3072 (W2 m ρ c main_v3) Gen.shapeCasts_S8192x3072_S8x1024x3072 := by
  dsimp only [Hand.V3, Hand.W3, hostOps1]; after_results; rfl

theorem W4_v5_0' (c : Dev nD) : W4 m ρ c main_v5_0 = Cert.KSpec.ctx (V3 m ρ c main_v4) :=
  (W4_v5_0 m ρ c).trans (final1_o (V3 m ρ) c)
theorem W4_v5_1' (c : Dev nD) : W4 m ρ c main_v5_1 = Cert.KSpec.attw (V3 m ρ c main_v4) :=
  (W4_v5_1 m ρ c).trans (final1_w (V3 m ρ) c)

theorem V5_v6 (c : Dev nD) : V5 m ρ c main_v6 = shapeCast S8192x1024 (W4 m ρ c main_v5_0) Gen.shapeCasts_S8x1024x1024_S8192x1024 := by
  dsimp only [Hand.V5, Hand.W5, hostOps2]; after_results; rfl
theorem V5_v1 (c : Dev nD) : V5 m ρ c main_v1 = m ((c : Thread nD τ).loc main_arg2) :=
  calc V5 m ρ c main_v1
    _ = W4 m ρ c main_v1 := StableHlo.after_of_writes_sub hostOps2 _ hostOps2_writes (by decide)
    _ = W3 m ρ c main_v1 := W4_of_ne m ρ c main_v1 (by decide) (by decide)
    _ = W2 m ρ c main_v1 := StableHlo.after_of_writes_sub hostOps1 _ hostOps1_writes (by decide)
    _ = W1 m ρ c main_v1 := W2_of_ne m ρ c main_v1 (by decide)
    _ = m ((c : Thread nD τ).loc main_arg2) := V1_v1 m ρ c

theorem W6_v7 (c : Dev nD) : W6 m ρ c main_v7
    = Cert.KSpec.lin (M := 8192) (N := 1024) (shapeCast S8192x1024 (W4 m ρ c main_v5_0) Gen.shapeCasts_S8x1024x1024_S8192x1024) (m ((c : Thread nD τ).loc main_arg2)) :=
  ((W6_arr m ρ c 2).trans (final2 (V5 m ρ) c)).trans (by rw [V5_v6, V5_v1])

theorem W7_v8 (c : Dev nD) : W7 m ρ c main_v8 = shapeCast S8x1024x1024 (W6 m ρ c main_v7) Gen.shapeCasts_S8192x1024_S8x1024x1024 := by
  dsimp only [Hand.W7, hostOps3]; after_results; rfl
theorem W7_v5_1 (c : Dev nD) : W7 m ρ c main_v5_1 = W4 m ρ c main_v5_1 :=
  calc W7 m ρ c main_v5_1
    _ = W6 m ρ c main_v5_1 := StableHlo.after_of_writes_sub hostOps3 _ hostOps3_writes (by decide)
    _ = W5 m ρ c main_v5_1 := W6_of_ne m ρ c main_v5_1 (by decide)
    _ = W4 m ρ c main_v5_1 := StableHlo.after_of_writes_sub hostOps2 _ hostOps2_writes (by decide)

/-! ## The two results -/

/-- The returned output is the attention layer's output. -/
theorem out_val (c : Dev nD) : W7 m ρ c main_v8
    = Cert.Spec.out (m ((c : Thread nD τ).loc main_arg0)) (m ((c : Thread nD τ).loc main_arg1)) (m ((c : Thread nD τ).loc main_arg2)) := by
  rw [W7_v8, W6_v7, W4_v5_0', V3_v4, W2_v3]
  exact Cert.Compose.out_eq _ _ _ _ _ _ _

/-- The returned weights are the attention layer's weights. -/
theorem attw_val (c : Dev nD) : W7 m ρ c main_v5_1
    = Cert.Spec.attw (m ((c : Thread nD τ).loc main_arg0)) (m ((c : Thread nD τ).loc main_arg1)) := by
  rw [W7_v5_1, W4_v5_1', V3_v4, W2_v3]
  exact Cert.Compose.attw_eq _ _ _ _

/-- Every weakly fair execution of the kernel program terminates without a fault; its two results are the attention
    layer's, and its arguments end unchanged. -/
theorem run_val : θ_run defs (onTc (τ := τ) (main (F := Ideal))) ⟨m, fun _ => 0, ρ⟩ (fun r => ∀ c : Dev nD,
      r.2.mem ((c.tc : Thread nD τ).loc main_v8) = Cert.Spec.out (m ((c : Thread nD τ).loc main_arg0)) (m ((c : Thread nD τ).loc main_arg1)) (m ((c : Thread nD τ).loc main_arg2))
      ∧ r.2.mem ((c.tc : Thread nD τ).loc main_v5_1) = Cert.Spec.attw (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v8 (by decide))).trans (out_val m ρ c),
     (h c _ (mem_uc main_v5_1 (by decide))).trans (attw_val m ρ c),
     (h c _ (mem_uc main_arg0 (by decide))).trans (W7_arg0 m ρ c),
     (h c _ (mem_uc main_arg1 (by decide))).trans (W7_arg1 m ρ c),
     (h c _ (mem_uc main_arg2 (by decide))).trans (W7_arg2 m ρ c)⟩) (run_all (F := Ideal) m ρ)

end Cert.KernelIdeal.HandValue

end
-- ==== Proof.RefSpecA.lean ====
/-
  The reference's two results are the attention layer's entries (`Cert.Spec`).

  First half: every stage of the reference up to the attention weights, read at literal coordinates.
-/
import proofs.«106777_j17008070492194_2_alg».proof.Proof.Gen.ReferenceIdeal.Read
import proofs.«106777_j17008070492194_2_alg».proof.Proof.Spec
import Idealize.ShloMosaic.PureOps.Ideal.Laws
import Idealize.ShloMosaic.Lib.ValueIdx
import Idealize.ShloMosaic.Lib.Pipeline.Value

noncomputable section

open scoped BigOperators

namespace Cert.RefSpec

open Idealize.ShloMosaic Idealize.ShloMosaic.ValueIdx Cert.ReferenceIdeal Cert.ReferenceIdeal.Read

variable (x0 : (⟨Cert.ReferenceIdeal.S8x1024x1024, .f32⟩ : BufTy).Contents (Elt Ideal))
variable (x1 : (⟨Cert.ReferenceIdeal.S3072x1024, .f32⟩ : BufTy).Contents (Elt Ideal))

/-! ## The projected row and its three sections -/

/-- Stage 0 at (b, t, e) is the projected row's column e. -/
theorem v0_at (b : Fin 8) (t : Fin 1024) (e : Fin 3072) :
    val_main_v0 (F := Ideal) x0 x1 (ix3 b t e) = Spec.qkv x0 x1 b t e := by
  rw [val_main_v0_apply]
  unfold Spec.qkv
  refine Finset.sum_congr rfl fun k _ => ?_
  have el : lidx_main_v0 (ix3 b t e) k = ix3 b t k := funext fun a => match a with
    | ⟨0, _⟩ => rfl
    | ⟨1, _⟩ => rfl
    | ⟨2, _⟩ => rfl
  have er : ridx_main_v0 (ix3 b t e) k = ix2 e k := funext fun a => match a with
    | ⟨0, _⟩ => rfl
    | ⟨1, _⟩ => rfl
  rw [el, er]

/-- Row-major arithmetic of the split of 3072 columns into section × head × coordinate:
    the flat position of (b, t, s, h, d) is row (b, t), column s·1024 + h·64 + d. -/
theorem idx_v1_at (b : Fin 8) (t : Fin 1024) (s : Fin 3) (h : Fin 16) (d : Fin 64) :
    idx_main_v1 (ix5 b t s h d) = ix3 b t (Spec.colOf s h d) := by
  have hb := b.isLt; have ht := t.isLt; have hs := s.isLt; have hh := h.isLt; have hd := d.isLt
  funext a
  match a with
  | ⟨0, _⟩ =>
    exact Fin.ext (by
      show (((((b.val * 1024 + t.val) * 3 + s.val) * 16 + h.val) * 64 + d.val) / 3145728 = b.val)
      omega)
  | ⟨1, _⟩ =>
    exact Fin.ext (by
      show (((((b.val * 1024 + t.val) * 3 + s.val) * 16 + h.val) * 64 + d.val) / 3072 % 1024 = t.val)
      omega)
  | ⟨2, _⟩ =>
    exact Fin.ext (by
      show (((((b.val * 1024 + t.val) * 3 + s.val) * 16 + h.val) * 64 + d.val) % 3072
        = s.val * 1024 + h.val * 64 + d.val)
      omega)

/-- The transposed array at (s, b, h, t, d) is the projected row of (b, t) at section s, head h, coordinate d. -/
theorem v2_at (s : Fin 3) (b : Fin 8) (h : Fin 16) (t : Fin 1024) (d : Fin 64) :
    val_main_v2 (F := Ideal) x0 x1 (ix5 s b h t d) = Spec.qkv x0 x1 b t (Spec.colOf s h d) := by
  have e2 : idx_main_v2 (ix5 s b h t d) = ix5 b t s h d := funext fun a => match a with
    | ⟨0, _⟩ => rfl
    | ⟨1, _⟩ => rfl
    | ⟨2, _⟩ => rfl
    | ⟨3, _⟩ => rfl
    | ⟨4, _⟩ => rfl
  rw [val_main_v2_apply, e2, val_main_v1_apply, idx_v1_at, v0_at]

/-- Row-major arithmetic of dropping a leading axis of size one. -/
theorem idx_v4_at (b : Fin 8) (h : Fin 16) (t : Fin 1024) (d : Fin 64) :
    idx_main_v4 (ix4 b h t d) = ix5 (0 : Fin 1) b h t d := by
  have hb := b.isLt; have hh := h.isLt; have ht := t.isLt; have hd := d.isLt
  funext a
  match a with
  | ⟨0, _⟩ => rfl
  | ⟨1, _⟩ =>
    exact Fin.ext (by
      show ((((b.val * 16 + h.val) * 1024 + t.val) * 64 + d.val) / 1048576 % 8 = b.val)
      omega)
  | ⟨2, _⟩ =>
    exact Fin.ext (by
      show ((((b.val * 16 + h.val) * 1024 + t.val) * 64 + d.val) / 65536 % 16 = h.val)
      omega)
  | ⟨3, _⟩ =>
    exact Fin.ext (by
      show ((((b.val * 16 + h.val) * 1024 + t.val) * 64 + d.val) / 64 % 1024 = t.val)
      omega)
  | ⟨4, _⟩ =>
    exact Fin.ext (by
      show ((((b.val * 16 + h.val) * 1024 + t.val) * 64 + d.val) % 64 = d.val)
      omega)

theorem idx_v6_at (b : Fin 8) (h : Fin 16) (t : Fin 1024) (d : Fin 64) :
    idx_main_v6 (ix4 b h t d) = ix5 (0 : Fin 1) b h t d := idx_v4_at b h t d

theorem idx_v8_at (b : Fin 8) (h : Fin 16) (t : Fin 1024) (d : Fin 64) :
    idx_main_v8 (ix4 b h t d) = ix5 (0 : Fin 1) b h t d := idx_v4_at b h t d

/-- The query section: stage 4 at (b, h, t, d). -/
theorem v4_at (b : Fin 8) (h : Fin 16) (t : Fin 1024) (d : Fin 64) :
    val_main_v4 (F := Ideal) x0 x1 (ix4 b h t d) = Spec.qkv x0 x1 b t (Spec.colOf 0 h d) := by
  have e3 : idx_main_v3 (ix5 (0 : Fin 1) b h t d) = ix5 (0 : Fin 3) b h t d := funext fun a => match a with
    | ⟨0, _⟩ => rfl
    | ⟨1, _⟩ => rfl
    | ⟨2, _⟩ => rfl
    | ⟨3, _⟩ => rfl
    | ⟨4, _⟩ => rfl
  rw [val_main_v4_apply, idx_v4_at, val_main_v3_apply, e3, v2_at]

/-- The key section: stage 6 at (b, h, t, d). -/
theorem v6_at (b : Fin 8) (h : Fin 16) (t : Fin 1024) (d : Fin 64) :
    val_main_v6 (F := Ideal) x0 x1 (ix4 b h t d) = Spec.qkv x0 x1 b t (Spec.colOf 1 h d) := by
  have e5 : idx_main_v5 (ix5 (0 : Fin 1) b h t d) = ix5 (1 : Fin 3) b h t d := funext fun a => match a with
    | ⟨0, _⟩ => rfl
    | ⟨1, _⟩ => rfl
    | ⟨2, _⟩ => rfl
    | ⟨3, _⟩ => rfl
    | ⟨4, _⟩ => rfl
  rw [val_main_v6_apply, idx_v6_at, val_main_v5_apply, e5, v2_at]

/-- The value section: stage 8 at (b, h, t, d). -/
theorem v8_at (b : Fin 8) (h : Fin 16) (t : Fin 1024) (d : Fin 64) :
    val_main_v8 (F := Ideal) x0 x1 (ix4 b h t d) = Spec.qkv x0 x1 b t (Spec.colOf 2 h d) := by
  have e7 : idx_main_v7 (ix5 (0 : Fin 1) b h t d) = ix5 (2 : Fin 3) b h t d := funext fun a => match a with
    | ⟨0, _⟩ => rfl
    | ⟨1, _⟩ => rfl
    | ⟨2, _⟩ => rfl
    | ⟨3, _⟩ => rfl
    | ⟨4, _⟩ => rfl
  rw [val_main_v8_apply, idx_v8_at, val_main_v7_apply, e7, v2_at]

/-! ## Scores -/

/-- Stage 11 at (b, h, q, k) is head h's scaled score of q against k. -/
theorem v11_at (b : Fin 8) (h : Fin 16) (q k : Fin 1024) :
    val_main_v11 (F := Ideal) x0 x1 (ix4 b h q k) = Spec.score x0 x1 b h q k := by
  rw [val_main_v11_apply, val_main_v10_apply, val_main_cst_apply, val_main_v9_apply, Ideal.mulf_def, Ideal.ofBits_def]
  unfold Spec.score Spec.scale
  refine congrArg (· * _) (Finset.sum_congr rfl fun d _ => ?_)
  have el : lidx_main_v9 (ix4 b h q k) d = ix4 b h q d := funext fun a => match a with
    | ⟨0, _⟩ => rfl
    | ⟨1, _⟩ => rfl
    | ⟨2, _⟩ => rfl
    | ⟨3, _⟩ => rfl
  have er : ridx_main_v9 (ix4 b h q k) d = ix4 b h k d := funext fun a => match a with
    | ⟨0, _⟩ => rfl
    | ⟨1, _⟩ => rfl
    | ⟨2, _⟩ => rfl
    | ⟨3, _⟩ => rfl
  rw [el, er, v4_at, v6_at]

end Cert.RefSpec

end
-- ==== Proof.RefSpec.lean ====
/-
  The reference's two results are the attention layer's entries (`Cert.Spec`).

  Second half: a row of scores to a row of weights, the contexts and the output projection.
-/
import proofs.«106777_j17008070492194_2_alg».proof.Proof.RefSpecA

noncomputable section

open scoped BigOperators

namespace Cert.RefSpec

open Idealize.ShloMosaic Idealize.ShloMosaic.ValueIdx Cert.ReferenceIdeal Cert.ReferenceIdeal.Read

variable (x0 : (⟨Cert.ReferenceIdeal.S8x1024x1024, .f32⟩ : BufTy).Contents (Elt Ideal))
variable (x1 : (⟨Cert.ReferenceIdeal.S3072x1024, .f32⟩ : BufTy).Contents (Elt Ideal))

/-! ## The row maximum -/

/-- The word a row maximum starts from denotes minus infinity, the least extended real. -/
theorem negInf_eq_bot : Spec.negInf = (⊥ : EReal) := by
  unfold Spec.negInf
  simp [Ideal.ofBits, Ideal.ieee]

/-- Dropping the last of four axes is a reduction of the shapes. -/
theorem reduces_last : S8x16x1024x1024.Reduces [3] S8x16x1024 := by decide

/-- The reduced index (b, h, q) with key position k put back is (b, h, q, k). -/
theorem lift_at (b : Fin 8) (h : Fin 16) (q : Fin 1024) (k : Fin (S8x16x1024x1024.size 3)) :
    reduces_last.lift (ix3 b h q) k = ix4 b h q (⟨k.val, k.isLt⟩ : Fin 1024) := by
  funext c; apply Fin.ext
  fin_cases c <;> rfl

/-- The host's reduction with a maximum body over the last of four axes, at (b, h, q), is the fold of max over
    the key positions from the initial value. -/
theorem hostMax_at (y : S8x16x1024x1024.Idx → EReal) (init : S_.Idx → EReal)
    (h' : S8x16x1024x1024.ReducesTo [3] S8x16x1024) (hu : 0 < S_.numel) (b : Fin 8) (h : Fin 16) (q : Fin 1024) :
    Host.reduce (FloatOps.maximumf (F := Ideal) (φ := .f32)) y init h' hu (ix3 b h q)
      = (Finset.univ : Finset (Fin 1024)).fold max (init (Shape.Idx.first hu)) (fun k : Fin 1024 => y (ix4 b h q k)) := by
  rw [Host.reduce_eq_fold_single (FloatOps.maximumf (F := Ideal) (φ := .f32)) y init h' reduces_last hu]
  have hf : (y ∘ reduces_last.lift (ix3 b h q)) = fun k : Fin 1024 => y (ix4 b h q k) :=
    funext fun k => congrArg y (lift_at b h q k)
  exact congrArg (fun f => Finset.fold max (init (Shape.Idx.first hu)) f (Finset.univ : Finset (Fin 1024))) hf

/-- Stage 12 at (b, h, q) is the maximum, from minus infinity, of the row of scores. -/
theorem v12_at (b : Fin 8) (h : Fin 16) (q : Fin 1024) :
    val_main_v12 (F := Ideal) x0 x1 (ix3 b h q) = Spec.rowMax (Spec.score x0 x1 b h q) := by
  unfold val_main_v12
  have hy : ∀ k : Fin 1024, val_main_v11 (F := Ideal) x0 x1 (ix4 b h q k) = Spec.score x0 x1 b h q k :=
    fun k => v11_at x0 x1 b h q k
  generalize val_main_v11 (F := Ideal) x0 x1 = y at hy ⊢
  refine (hostMax_at y _ _ _ b h q).trans ?_
  unfold Spec.rowMax Spec.negInf
  exact congrArg (fun f => Finset.fold max (Ideal.ofBits .f32 0xFF800000#32) f (Finset.univ : Finset (Fin 1024))) (funext hy)

/-- Stage 16 at (b, h, q, k): the reference takes the larger of minus infinity and the row maximum, which is
    the row maximum, and repeats it along the row. -/
theorem v16_at (b : Fin 8) (h : Fin 16) (q k : Fin 1024) :
    val_main_v16 (F := Ideal) x0 x1 (ix4 b h q k) = Spec.rowMax (Spec.score x0 x1 b h q) := by
  have e : idx_main_v15 (idx_main_v16 (ix4 b h q k)) = ix3 b h q := funext fun a => match a with
    | ⟨0, _⟩ => rfl
    | ⟨1, _⟩ => rfl
    | ⟨2, _⟩ => rfl
  rw [val_main_v16_apply, val_main_v15_apply, e, val_main_v14_apply, val_main_v13_apply, val_main_cst_1_apply,
    v12_at, Ideal.maximumf_def, Ideal.ofBits_def]
  have hb : Ideal.ofBits .f32 0xFF800000#32 = (⊥ : EReal) := negInf_eq_bot
  rw [hb]
  exact max_bot_left _

/-! ## Exponentials, their sum, the weights -/

/-- Stage 18 at (b, h, q, k) is the exponential of the score less the row maximum. -/
theorem v18_at (b : Fin 8) (h : Fin 16) (q k : Fin 1024) :
    val_main_v18 (F := Ideal) x0 x1 (ix4 b h q k) = Spec.rowExp (Spec.score x0 x1 b h q) k := by
  rw [val_main_v18_apply, val_main_v17_apply, v11_at, v16_at, Ideal.hostUnary_exp_def, Ideal.subf_def]
  rfl

/-- Stage 21 at (b, h, q, k) is the sum of the row's exponentials (the sum starts from the zero word). -/
theorem v21_at (b : Fin 8) (h : Fin 16) (q k : Fin 1024) :
    val_main_v21 (F := Ideal) x0 x1 (ix4 b h q k) = ∑ j : Fin 1024, Spec.rowExp (Spec.score x0 x1 b h q) j := by
  have e : idx_main_v20 (idx_main_v21 (ix4 b h q k)) = ix3 b h q := funext fun a => match a with
    | ⟨0, _⟩ => rfl
    | ⟨1, _⟩ => rfl
    | ⟨2, _⟩ => rfl
  rw [val_main_v21_apply, val_main_v20_apply, e, val_main_v19_apply, val_main_cst_2_apply, Ideal.ofBits_def,
    Ideal.ofBits_zero_f32, zero_add]
  refine Finset.sum_congr rfl fun j _ => ?_
  have ej : idx_main_v19 (ix3 b h q) j = ix4 b h q j := funext fun a => match a with
    | ⟨0, _⟩ => rfl
    | ⟨1, _⟩ => rfl
    | ⟨2, _⟩ => rfl
    | ⟨3, _⟩ => rfl
  rw [ej, v18_at]

/-- Stage 22 at (b, h, q, k) is the weight of key k in the row of query q. -/
theorem v22_at (b : Fin 8) (h : Fin 16) (q k : Fin 1024) :
    val_main_v22 (F := Ideal) x0 x1 (ix4 b h q k) = Spec.softmax (Spec.score x0 x1 b h q) k := by
  rw [val_main_v22_apply, v18_at, v21_at, Ideal.hostDivf_def]
  rfl

/-- The reference's second result is the attention weights. -/
theorem ref_attw (x0 : (⟨Cert.ReferenceIdeal.S8x1024x1024, .f32⟩ : BufTy).Contents (Elt Ideal))
    (x1 : (⟨Cert.ReferenceIdeal.S3072x1024, .f32⟩ : BufTy).Contents (Elt Ideal)) :
    Cert.ReferenceIdeal.Read.val_main_v22 (F := Ideal) x0 x1 = Cert.Spec.attw x0 x1 := by
  funext i
  exact (congrArg (val_main_v22 (F := Ideal) x0 x1) (eq_ix4 i)).trans (v22_at x0 x1 (i 0) (i 1) (i 2) (i 3))

/-! ## Contexts and the output projection -/

/-- Stage 23 at (b, h, t, d) is head h's context of token (b, t), coordinate d. -/
theorem v23_at (b : Fin 8) (h : Fin 16) (t : Fin 1024) (d : Fin 64) :
    val_main_v23 (F := Ideal) x0 x1 (ix4 b h t d) = Spec.ctx x0 x1 b t h d := by
  rw [val_main_v23_apply]
  unfold Spec.ctx
  refine Finset.sum_congr rfl fun k _ => ?_
  have el : lidx_main_v23 (ix4 b h t d) k = ix4 b h t k := funext fun a => match a with
    | ⟨0, _⟩ => rfl
    | ⟨1, _⟩ => rfl
    | ⟨2, _⟩ => rfl
    | ⟨3, _⟩ => rfl
  have er : ridx_main_v23 (ix4 b h t d) k = ix4 b h k d := funext fun a => match a with
    | ⟨0, _⟩ => rfl
    | ⟨1, _⟩ => rfl
    | ⟨2, _⟩ => rfl
    | ⟨3, _⟩ => rfl
  rw [el, er, v22_at, v8_at]

/-- Row-major arithmetic of joining head × coordinate into 1024 columns: column c is head c / 64, coordinate c % 64. -/
theorem idx_v25_at (b : Fin 8) (t : Fin 1024) (c : Fin 1024) :
    idx_main_v24 (idx_main_v25 (ix3 b t c)) = ix4 b (Spec.headOf c) t (Spec.coordOf c) := by
  have hb := b.isLt; have ht := t.isLt; have hc := c.isLt
  funext a
  match a with
  | ⟨0, _⟩ =>
    exact Fin.ext (by
      show (((b.val * 1024 + t.val) * 1024 + c.val) / 1048576 = b.val)
      omega)
  | ⟨1, _⟩ =>
    exact Fin.ext (by
      show (((b.val * 1024 + t.val) * 1024 + c.val) / 64 % 16 = c.val / 64)
      omega)
  | ⟨2, _⟩ =>
    exact Fin.ext (by
      show (((b.val * 1024 + t.val) * 1024 + c.val) / 1024 % 1024 = t.val)
      omega)
  | ⟨3, _⟩ =>
    exact Fin.ext (by
      show (((b.val * 1024 + t.val) * 1024 + c.val) % 64 = c.val % 64)
      omega)

/-- Stage 25 at (b, t, c) is the context of token (b, t) at column c's head and coordinate. -/
theorem v25_at (b : Fin 8) (t : Fin 1024) (c : Fin 1024) :
    val_main_v25 (F := Ideal) x0 x1 (ix3 b t c) = Spec.ctx x0 x1 b t (Spec.headOf c) (Spec.coordOf c) := by
  rw [val_main_v25_apply, val_main_v24_apply, idx_v25_at, v23_at]

/-- The reference's first result is the projected output. -/
theorem ref_out (x0 : (⟨Cert.ReferenceIdeal.S8x1024x1024, .f32⟩ : BufTy).Contents (Elt Ideal))
    (x1 : (⟨Cert.ReferenceIdeal.S3072x1024, .f32⟩ : BufTy).Contents (Elt Ideal))
    (x2 : (⟨Cert.ReferenceIdeal.S1024x1024, .f32⟩ : BufTy).Contents (Elt Ideal)) :
    Cert.ReferenceIdeal.Read.val_main_v26 (F := Ideal) x0 x1 x2 = Cert.Spec.out x0 x1 x2 := by
  funext i
  rw [val_main_v26_apply]
  unfold Spec.out
  refine Finset.sum_congr rfl fun c _ => ?_
  have el : lidx_main_v26 i c = ix3 (i 0) (i 1) c := funext fun a => match a with
    | ⟨0, _⟩ => rfl
    | ⟨1, _⟩ => rfl
    | ⟨2, _⟩ => rfl
  have er : ridx_main_v26 i c = ix2 (i 2) c := funext fun a => match a with
    | ⟨0, _⟩ => rfl
    | ⟨1, _⟩ => rfl
  rw [el, er]
  exact congrArg (· * _) (v25_at x0 x1 (i 0) (i 1) c)

end Cert.RefSpec

end
-- ==== Proof.lean ====
/-
  The kernel (a bf16 attention layer in three pipelined kernels: the q/k/v projection, attention over pairs of heads, the
  output projection, joined by reshapes) against its jnp reference, over the extended reals.

  Over the extended reals a change of float format is the identity and every matrix product is a plain finite sum, so
  both programs compute, entry by entry, the same two arrays (`Cert.Spec`): the projected rows x·w_qkvᵀ; per batch and
  head the scores q·kᵀ/8, their row-wise softmax exp (s − max s) / ∑ exp (s − max s) — the returned attention weights —,
  the weighted sums of the value rows; and the product of the 16 heads' contexts, side by side, with w_projᵀ — the
  returned output. The kernel side reads each region's output array as one whole-array function of its operand arrays
  (each grid point overwrites one block with a pure function of the operand blocks, and the blocks tile the array) and
  composes the three through the reshapes; the reference side reads its operations one at a time. The two sides are
  syntactically the same sums, so no finiteness of the inputs is used. The three frames: the reference is a run of host
  operations; the kernel program, at either reading of its floats, is a run of four host stretches and three regions, no
  segment of which writes an argument array. The idealization rewrote nothing, so there is nothing to preserve.
-/
import proofs.«106777_j17008070492194_2_alg».proof.Defs
import proofs.«106777_j17008070492194_2_alg».proof.Proof.Gen.Kernel
import proofs.«106777_j17008070492194_2_alg».proof.Proof.Gen.KernelIdeal
import proofs.«106777_j17008070492194_2_alg».proof.Proof.Gen.ReferenceIdeal
import proofs.«106777_j17008070492194_2_alg».proof.Proof.Gen.Pre_finite_inputs
import proofs.«106777_j17008070492194_2_alg».proof.Proof.BRun
import proofs.«106777_j17008070492194_2_alg».proof.Proof.IFinal
import proofs.«106777_j17008070492194_2_alg».proof.Proof.RefSpec
import Idealize.ShloMosaic.Adequacy
import Idealize.ShloMosaic.Init

noncomputable section

namespace Cert.Proof

open Idealize.ShloMosaic Idealize.ShloMosaic.TcCoe Idealize.SL.Sem

/-- The kernel program as printed: it runs to the end and leaves its arguments as launched. -/
theorem frame_k : Cert.frame_Kernel := fun m ρ _ => Cert.Kernel.Hand.frame (F := Bits) m ρ

/-- The same program read over the extended reals. -/
theorem frame_ki : Cert.frame_KernelIdeal := fun m ρ _ => Cert.KernelIdeal.Hand.frame (F := Ideal) m ρ

/-- The reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the attention layer's two results of the (agreeing) arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Spec.attw (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run_val m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v26_eq, Cert.RefSpec.ref_out, (hagree c).1, (hagree c).2.1, (hagree c).2.2]
  · rw [(h c).2.1, Cert.ReferenceIdeal.Read.val_main_v22_eq, Cert.RefSpec.ref_attw, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
